-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768 : Shape := ⟨1, ![32768]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel

variable [Facts]

def fn {F : FTy → Type} [FloatOps F] (main_arg0 : FVec F S32768x128 .f32) (main_arg1 : IVec S32768 32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  main_v3
-- ==== Kernel.lean ====
abbrev S32768x128 : Shape := ⟨2, ![32768, 128]⟩
abbrev S32768 : Shape := ⟨1, ![32768]⟩
abbrev S_ : Shape := ⟨0, ![]⟩
abbrev S32768x1 : Shape := ⟨2, ![32768, 1]⟩
abbrev S32x1024x128 : Shape := ⟨3, ![32, 1024, 128]⟩
abbrev S1x1 : Shape := ⟨2, ![1, 1]⟩
abbrev S1x512x128 : Shape := ⟨3, ![1, 512, 128]⟩
abbrev S1x1024x128 : Shape := ⟨3, ![1, 1024, 128]⟩
abbrev S512x128 : Shape := ⟨2, ![512, 128]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S1 : Shape := ⟨1, ![1]⟩

abbrev nBuf : Space → Nat
  | .hbm => 19
  | .vmem => 6
  | .smem => 0
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S32768, .i32⟩
  | .hbm, ⟨3, _⟩ => ⟨S32768, .i32⟩
  | .hbm, ⟨4, _⟩ => ⟨S32768, .i32⟩
  | .hbm, ⟨5, _⟩ => ⟨S_, .i32⟩
  | .hbm, ⟨6, _⟩ => ⟨S32768, .i32⟩
  | .hbm, ⟨7, _⟩ => ⟨S32768, .i1⟩
  | .hbm, ⟨8, _⟩ => ⟨S_, .i32⟩
  | .hbm, ⟨9, _⟩ => ⟨S32768, .i32⟩
  | .hbm, ⟨10, _⟩ => ⟨S32768, .i32⟩
  | .hbm, ⟨11, _⟩ => ⟨S32768, .i32⟩
  | .hbm, ⟨12, _⟩ => ⟨S32768x1, .i32⟩
  | .hbm, ⟨13, _⟩ => ⟨S32768x128, .f32⟩
  | .hbm, ⟨14, _⟩ => ⟨S32x1024x128, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x512x128, .f32⟩
  | .local _ .vmem, ⟨1, _⟩ => ⟨S1x512x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1, .f32⟩
  | .local _ .vmem, ⟨5, _⟩ => ⟨S1x1, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 31], ![false, false]⟩

def k0_cond2 (i : grid0.Coords) : BitVec 1 :=
  let arg0 : BitVec 32 := BitVec.ofNat 32 (i 0).val
  let c1_i32 : BitVec 32 := 1#32
  let v40 : BitVec 1 := Scalar.cmpi .eq arg0 c1_i32
  let arg1 : BitVec 32 := BitVec.ofNat 32 (i 1).val
  let c30_i32 : BitVec 32 := 30#32
  let v41 : BitVec 1 := Scalar.cmpi .eq arg1 c30_i32
  let v42 : BitVec 1 := Scalar.andi v40 v41
  let v43 : BitVec 32 := Scalar.extui v42
  let c0_i32_19 : BitVec 32 := 0#32
  let v44 : BitVec 1 := Scalar.cmpi .ne v43 c0_i32_19
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  shapeCasts_S32768x128_S32x1024x128 : S32768x128.ShapeCasts S32x1024x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  reduces_S512x128_S512 : S512x128.Reduces [1] S512
  shapeCasts_S512_S512x1 : S512.ShapeCasts S512x1
  reduces_S1024x128_S1024 : S1024x128.Reduces [1] S1024
  shapeCasts_S1024_S1x1024 : S1024.ShapeCasts S1x1024
  broadcasts_S512x1_S512x1024 : S512x1.Broadcasts S512x1024
  broadcasts_S1x1024_S512x1024 : S1x1024.Broadcasts S512x1024
  reduces_S512x1024_S512 : S512x1024.Reduces [1] S512
  reduces_S512x1_S1 : S512x1.Reduces [0] S1
  shapeCasts_S1_S1x1 : S1.ShapeCasts S1x1
  shapeCasts_S1x1_S_ : S1x1.ShapeCasts S_
  gather_S32768x128_S32768x1_S32768x128_1_0_n_n_0_1_1128_wf : GatherDims.WF S32768x128 S32768x1 S32768x128 [1] [0] [] [0] [] 1 ![1, 128]
  dot_S512x128_S1024x128_S512x1024_1_1_0_0_n_n_wf : DotDims.WF S512x128 S1024x128 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S32x1024x128.size a
  hwx0_0 : ∀ i : grid0.Coords, EltTy.bits .f32 = 32 ∨ (Rect.block (s := S32x1024x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S32x1024x128.size a
  hwx0_1 : ∀ i : grid0.Coords, EltTy.bits .f32 = 32 ∨ (Rect.block (s := S32x1024x128) S1x1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S32768x128_S32768x1_S32768x128_1_0_n_n_0_1_1128 : GatherDims S32768x128 S32768x1 S32768x128 where
  offsetDims := [1]
  collapsedSliceDims := [0]
  operandBatchingDims := []
  startIndicesBatchingDims := []
  startIndexMap := [0]
  indexVectorDim := 1
  sliceSizes := ![1, 128]
  wf := gather_S32768x128_S32768x1_S32768x128_1_0_n_n_0_1_1128_wf
def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_v8) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32768x128 : Shape := ⟨2, ![32768, 128]⟩
abbrev S32768 : Shape := ⟨1, ![32768]⟩
abbrev S_ : Shape := ⟨0, ![]⟩
abbrev S32768x1 : Shape := ⟨2, ![32768, 1]⟩
abbrev S32x1024x128 : Shape := ⟨3, ![32, 1024, 128]⟩
abbrev S31x1024x128 : Shape := ⟨3, ![31, 1024, 128]⟩
abbrev S31x1024 : Shape := ⟨2, ![31, 1024]⟩
abbrev S31x1024x1 : Shape := ⟨3, ![31, 1024, 1]⟩
abbrev S31x1x1024 : Shape := ⟨3, ![31, 1, 1024]⟩
abbrev S31x1024x1024 : Shape := ⟨3, ![31, 1024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S32768, .i32⟩
  | .hbm, ⟨3, _⟩ => ⟨S32768, .i32⟩
  | .hbm, ⟨4, _⟩ => ⟨S32768, .i32⟩
  | .hbm, ⟨5, _⟩ => ⟨S_, .i32⟩
  | .hbm, ⟨6, _⟩ => ⟨S32768, .i32⟩
  | .hbm, ⟨7, _⟩ => ⟨S32768, .i1⟩
  | .hbm, ⟨8, _⟩ => ⟨S_, .i32⟩
  | .hbm, ⟨9, _⟩ => ⟨S32768, .i32⟩
  | .hbm, ⟨10, _⟩ => ⟨S32768, .i32⟩
  | .hbm, ⟨11, _⟩ => ⟨S32768, .i32⟩
  | .hbm, ⟨12, _⟩ => ⟨S32768x1, .i32⟩
  | .hbm, ⟨13, _⟩ => ⟨S32768x128, .f32⟩
  | .hbm, ⟨14, _⟩ => ⟨S32x1024x128, .f32⟩
  | .hbm, ⟨15, _⟩ => ⟨S31x1024x128, .f32⟩
  | .hbm, ⟨16, _⟩ => ⟨S31x1024x128, .f32⟩
  | .hbm, ⟨17, _⟩ => ⟨S31x1024x128, .f32⟩
  | .hbm, ⟨18, _⟩ => ⟨S_, .f32⟩
  | .hbm, ⟨19, _⟩ => ⟨S31x1024, .f32⟩
  | .hbm, ⟨20, _⟩ => ⟨S31x1024x1, .f32⟩
  | .hbm, ⟨21, _⟩ => ⟨S31x1024x128, .f32⟩
  | .hbm, ⟨22, _⟩ => ⟨S_, .f32⟩
  | .hbm, ⟨23, _⟩ => ⟨S31x1024, .f32⟩
  | .hbm, ⟨24, _⟩ => ⟨S31x1x1024, .f32⟩
  | .hbm, ⟨25, _⟩ => ⟨S31x1024x1024, .f32⟩
  | .hbm, ⟨26, _⟩ => ⟨S31x1024x1024, .f32⟩
  | .hbm, ⟨27, _⟩ => ⟨S31x1024x1024, .f32⟩
  | .hbm, ⟨28, _⟩ => ⟨S31x1024x1024, .f32⟩
  | .hbm, ⟨29, _⟩ => ⟨S_, .f32⟩
  | .hbm, ⟨30, _⟩ => ⟨S31x1024x1024, .f32⟩
  | .hbm, ⟨31, _⟩ => ⟨S31x1024x1024, .f32⟩
  | .hbm, ⟨32, _⟩ => ⟨S31x1024x1024, .f32⟩
  | .hbm, ⟨33, _⟩ => ⟨S_, .f32⟩
  | .hbm, ⟨34, _⟩ => ⟨S31x1024x1024, .f32⟩
  | .hbm, ⟨35, _⟩ => ⟨S31x1024x1024, .f32⟩
  | .hbm, ⟨36, _⟩ => ⟨S31x1024x1024, .f32⟩
  | .hbm, ⟨37, _⟩ => ⟨S_, .f32⟩
  | .hbm, ⟨38, _⟩ => ⟨S31x1024x1024, .f32⟩
  | .hbm, ⟨39, _⟩ => ⟨S31x1024x1024, .f32⟩
  | .hbm, ⟨40, _⟩ => ⟨S_, .f32⟩
  | .hbm, ⟨41, _⟩ => ⟨S31x1024x1024, .f32⟩
  | .hbm, ⟨42, _⟩ => ⟨S31x1024x1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_call1_cst : Ref sig .tc := ⟨.hbm, 40, rfl⟩
abbrev main_call1_v0 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  shapeCasts_S32768x128_S32x1024x128 : S32768x128.ShapeCasts S32x1024x128
  slices_S32x1024x128_S31x1024x128_0_0_0 : S32x1024x128.Slices ![0, 0, 0] S31x1024x128
  slices_S32x1024x128_S31x1024x128_1_0_0 : S32x1024x128.Slices ![1, 0, 0] S31x1024x128
  reducesTo_S31x1024x128_S31x1024_d2 : S31x1024x128.ReducesTo [2] S31x1024
  h_S_ : 0 < S_.numel
  bcast_S31x1024_S31x1024x1_0_1 : S31x1024.BroadcastsInDim S31x1024x1 (![0, 1] : Fin 2 → Fin S31x1024x1.rank)
  bcast_S31x1024_S31x1x1024_0_2 : S31x1024.BroadcastsInDim S31x1x1024 (![0, 2] : Fin 2 → Fin S31x1x1024.rank)
  bcast_S31x1024x1_S31x1024x1024_0_1_2 : S31x1024x1.BroadcastsInDim S31x1024x1024 (![0, 1, 2] : Fin 3 → Fin S31x1024x1024.rank)
  bcast_S31x1x1024_S31x1024x1024_0_1_2 : S31x1x1024.BroadcastsInDim S31x1024x1024 (![0, 1, 2] : Fin 3 → Fin S31x1024x1024.rank)
  bcast_S_S31x1024x1024 : S_.BroadcastsInDim S31x1024x1024 (![] : Fin 0 → Fin S31x1024x1024.rank)
  reducesTo_S31x1024x1024_S_d0_1_2 : S31x1024x1024.ReducesTo [0, 1, 2] S_
  gather_S32768x128_S32768x1_S32768x128_1_0_n_n_0_1_1128_wf : GatherDims.WF S32768x128 S32768x1 S32768x128 [1] [0] [] [0] [] 1 ![1, 128]
  dot_S31x1024x128_S31x1024x128_S31x1024x1024_2_2_1_1_0_0_wf : DotDims.WF S31x1024x128 S31x1024x128 S31x1024x1024 [2] [2] [1] [1] [0] [0]

variable [Facts₀]

def comparator_i32_i32_d0 : BitVec 32 × BitVec 32 → BitVec 32 × BitVec 32 → BitVec 1 :=
  fun l r =>
    let v2 := IntOp.cmpi .slt l.1 r.1
    v2
def gather_S32768x128_S32768x1_S32768x128_1_0_n_n_0_1_1128 : GatherDims S32768x128 S32768x1 S32768x128 where
  offsetDims := [1]
  collapsedSliceDims := [0]
  operandBatchingDims := []
  startIndicesBatchingDims := []
  startIndexMap := [0]
  indexVectorDim := 1
  sliceSizes := ![1, 128]
  wf := gather_S32768x128_S32768x1_S32768x128_1_0_n_n_0_1_1128_wf
def dot_S31x1024x128_S31x1024x128_S31x1024x1024_2_2_1_1_0_0 : DotDims S31x1024x128 S31x1024x128 S31x1024x1024 where
  lhsContracting := [2]
  rhsContracting := [2]
  lhsNonContracting := [1]
  rhsNonContracting := [1]
  lhsBatch := [0]
  rhsBatch := [0]
  wf := dot_S31x1024x128_S31x1024x128_S31x1024x1024_2_2_1_1_0_0_wf

class Facts : Prop extends Facts₀ where

variable [Facts]
-- ==== Proof.BitsBody.lean ====
import proofs.«177037_j60825326846106_1_alg».proof.Proof.Gen.Kernel.Launch
import proofs.«177037_j60825326846106_1_alg».proof.Proof.Gen.Kernel.Skeleton
import proofs.«177037_j60825326846106_1_alg».proof.Proof.Gen.Kernel.Points
import Idealize.ShloMosaic.Lib.Pipeline.FrameBody
import Idealize.ShloMosaic.Lib.Pipeline.Kit
import Idealize.ShloMosaic.Lib.Pipeline.Regions
import Idealize.ShloMosaic.Lib.Ring
import Idealize.ShloMosaic.Lib.Pipeline.Value
import Idealize.ShloMosaic.Lib.Tactic

set_option maxRecDepth 16384

noncomputable section

/-! # The kernel body at one grid point

The body keeps a running total in a 1 x 1 scratch cell. At the first grid point it zeroes the cell; at every point it
adds to the cell the sum over a 512 x 1024 tile of max(1 - sqrt(max(|a_i|^2 + |b_j|^2 - 2 a_i.b_j, 0)), 0), where the
a_i are the 512 rows of the first staged block and the b_j the 1024 rows of the second; at the last grid point it
copies the cell into the 1 x 1 output block. Three cases of the two tests on the grid coordinates occur, and each is
run once on arbitrary contents: the staged blocks come back unchanged, the cell holds the old total plus the tile's
sum (from zero at the first point), and the output block is untouched except at the last point, where it receives
the cell's new contents. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point of the grid: both coordinates zero, as the body computes the test. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The last point of the grid, as the body computes the test. -/
abbrev condLast (i : grid0.Coords) : Prop := k0_cond2 i = 1#1

theorem hz2 : (![0, 0] : Fin 2 → ℕ) = fun _ => 0 := by funext a; fin_cases a <;> rfl
theorem hz3 : (![0, 0, 0] : Fin 3 → ℕ) = fun _ => 0 := by funext a; fin_cases a <;> rfl

/-- One point's contribution added to the running total: the body's arithmetic from the two staged blocks and the total so far. -/
def step (x0 : Vec F S1x512x128 .f32) (x1 : Vec F S1x1024x128 .f32) (xs : Vec F S1x1 .f32) : Vec F S1x1 .f32 :=
  k0_pay1 (k0_pay3 x0 x1 xs)

/-- A buffer read back after a last store through its whole rectangle holds that store's payload. -/
theorem read_store_whole {S : Shape} {e : EltTy} {sp : Space} (v : View sig .tc sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩), View.canon_cons_unit_zero hz]

theorem runFirst (c : Dev nD) (i : grid0.Coords) (arg2 : Memref sig .tc .vmem S1x512x128 .f32) (harg2 : arg2.IsWhole) (arg3 : Memref sig .tc .vmem S1x1024x128 .f32) (harg3 : arg3.IsWhole) (arg4 : Memref sig .tc .vmem S1x1 .f32) (harg4 : arg4.IsWhole) (arg5 : Memref sig .tc .vmem S1x1 .f32) (harg5 : arg5.IsWhole)
    (hc0 : condFirst i) (hc1 : ¬condLast i)
    (x0 : Vec F S1x512x128 .f32) (x1 : Vec F S1x1024x128 .f32) (xo : Vec F S1x1 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (step x0 x1 (k0_pay2 (F := F)))) -∗ K ⟨⟩))
      ⊢ wp frame (wpE (defs₀ (F := F)) Variants.none c none) E (cc0__pairwise_kernel i arg2 harg2 arg3 harg3 arg4 harg4 arg5 harg5) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  sl_unfold_words
  rw [read_store_whole (S := S1x1) _ _ hz2]
  simp only [View.readAt_eq_ld, harg2.read_unread, harg3.read_unread, harg4.read_unread, harg5.read_unread, View.ld_unit_zero (S := S1x512x128) hz3, View.ld_unit_zero (S := S1x1024x128) hz3, View.ld_unit_zero (S := S1x1) hz2,
    View.readCov_unit_zero (S := S1x1) _ hz2, read_store_whole (S := S1x1) _ _ hz2]
  try (unfold step; rfl)

theorem runMid (c : Dev nD) (i : grid0.Coords) (arg2 : Memref sig .tc .vmem S1x512x128 .f32) (harg2 : arg2.IsWhole) (arg3 : Memref sig .tc .vmem S1x1024x128 .f32) (harg3 : arg3.IsWhole) (arg4 : Memref sig .tc .vmem S1x1 .f32) (harg4 : arg4.IsWhole) (arg5 : Memref sig .tc .vmem S1x1 .f32) (harg5 : arg5.IsWhole)
    (hc0 : ¬condFirst i) (hc1 : ¬condLast i)
    (x0 : Vec F S1x512x128 .f32) (x1 : Vec F S1x1024x128 .f32) (xo : Vec F S1x1 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (step x0 x1 xs)) -∗ K ⟨⟩))
      ⊢ wp frame (wpE (defs₀ (F := F)) Variants.none c none) E (cc0__pairwise_kernel i arg2 harg2 arg3 harg3 arg4 harg4 arg5 harg5) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  sl_unfold_words
  rw [read_store_whole (S := S1x1) _ _ hz2]
  simp only [View.readAt_eq_ld, harg2.read_unread, harg3.read_unread, harg4.read_unread, harg5.read_unread, View.ld_unit_zero (S := S1x512x128) hz3, View.ld_unit_zero (S := S1x1024x128) hz3, View.ld_unit_zero (S := S1x1) hz2,
    View.readCov_unit_zero (S := S1x1) _ hz2, read_store_whole (S := S1x1) _ _ hz2]
  try (unfold step; rfl)

theorem runLast (c : Dev nD) (i : grid0.Coords) (arg2 : Memref sig .tc .vmem S1x512x128 .f32) (harg2 : arg2.IsWhole) (arg3 : Memref sig .tc .vmem S1x1024x128 .f32) (harg3 : arg3.IsWhole) (arg4 : Memref sig .tc .vmem S1x1 .f32) (harg4 : arg4.IsWhole) (arg5 : Memref sig .tc .vmem S1x1 .f32) (harg5 : arg5.IsWhole)
    (hc0 : ¬condFirst i) (hc1 : condLast i)
    (x0 : Vec F S1x512x128 .f32) (x1 : Vec F S1x1024x128 .f32) (xo : Vec F S1x1 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare (step x0 x1 xs) ∗ owns (c : Thread nD τ) arg5 fullShare (step x0 x1 xs)) -∗ K ⟨⟩))
      ⊢ wp frame (wpE (defs₀ (F := F)) Variants.none c none) E (cc0__pairwise_kernel i arg2 harg2 arg3 harg3 arg4 harg4 arg5 harg5) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_words
    rw [read_store_whole (S := S1x1) _ _ hz2]
    simp only [View.readAt_eq_ld, harg2.read_unread, harg3.read_unread, harg4.read_unread, harg5.read_unread, View.ld_unit_zero (S := S1x512x128) hz3, View.ld_unit_zero (S := S1x1024x128) hz3, View.ld_unit_zero (S := S1x1) hz2,
      View.readCov_unit_zero (S := S1x1) _ hz2, read_store_whole (S := S1x1) _ _ hz2]
    try (unfold step; rfl)
  iexists _; isplitr
  swap; · iexact HS
  ipureintro
  sl_unfold_words
  rw [read_store_whole (S := S1x1) _ _ hz2]
  simp only [View.readAt_eq_ld, harg2.read_unread, harg3.read_unread, harg4.read_unread, harg5.read_unread, View.ld_unit_zero (S := S1x512x128) hz3, View.ld_unit_zero (S := S1x1024x128) hz3, View.ld_unit_zero (S := S1x1) hz2,
    View.readCov_unit_zero (S := S1x1) _ hz2, read_store_whole (S := S1x1) _ _ hz2]
  try (unfold step; rfl)

end Cert.Kernel.Hand
end
-- ==== Proof.BitsRun.lean ====
import proofs.«177037_j60825326846106_1_alg».proof.Proof.BitsBody
import Idealize.ShloMosaic.Lib.Pipeline.Frame
import Idealize.ShloMosaic.Lib.StableHlo.Run
import Idealize.ShloMosaic.Lib.Decide

set_option maxRecDepth 16384

noncomputable section

/-! # The kernel program's run

The program is thirteen host operations (a stable argsort of the labels, the gather of the rows in that order, the
reshape to 32 classes of 1024 rows), one kernel region over a 2 x 31 grid, and three host operations (the 1 x 1
result read as a scalar and divided by 31 * 1024 * 1024). At grid point t = 31 * h + c the region stages rows
512 h .. 512 h + 511 of class c and all 1024 rows of class c + 1 out of ONE array, held by two input windows at half
shares, and the body adds that tile's sum to a running total kept in a scratch cell; the last point copies the total to
the output block, which is the only block ever written back. Here: the proof data (the total after each point by
recursion on the point), the body obligation from the three cases of the body, the program as four segments, and its
run — every weakly fair execution terminates with the two arguments unchanged and the result buffer holding the
total after the last point, read as a scalar and divided. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two tests of the body, over the grid -/

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 61 :=
  (by decide +kernel : ∀ t : Fin grid0.N, condLast (grid0.coords t) ↔ t.val = 61)
/-- The two input windows are never idle; the output window is idle, and not written back, except at the last point. -/
theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, t.val ≠ 61 → cfg0.idle 2 (grid0.coords t) = true :=
  (by decide +kernel : ∀ t : Fin grid0.N, t.val ≠ 61 → cfg0.idle 2 (grid0.coords t) = true)
theorem live2 : ∀ t : Fin cfg0.N, t.val = 61 → cfg0.idle 2 (grid0.coords t) = false :=
  (by decide +kernel : ∀ t : Fin grid0.N, t.val = 61 → cfg0.idle 2 (grid0.coords t) = false)
theorem noFlush2 : ∀ t : Fin cfg0.N, t.val ≠ 61 → (cfg0.win 2).flush t = false :=
  (by decide +kernel : ∀ t : Fin grid0.N, t.val ≠ 61 → win0_2.flush t = false)

/-! ## The buffers' contents when the region is entered -/

/-- The device's buffers at launch, after the argsort's three operations, and after the ten operations before the region. -/
abbrev V₀ (c : Dev nD) : Valuation τ sig (Elt F) := fun b => m (c, b)
abbrev V₁ (c : Dev nD) : Valuation τ sig (Elt F) := StableHlo.after hostOps0 (V₀ m c)
abbrev V₂ (c : Dev nD) : Valuation τ sig (Elt F) := StableHlo.after hostOps0_1 (V₁ m c)
/-- The same read at a reference of the core. -/
abbrev V (c : Dev nD) (b : Ref sig .tc) : Buf (Elt F) ((c : Thread nD τ).loc b) := V₂ m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The running total after point n: from zero at the first point, each point adds its tile's sum. -/
def acc (c : Dev nD) : (n : ℕ) → n < cfg0.N → Vec F S1x1 .f32
  | 0, h => step (iblk m c 0 ⟨0, h⟩) (iblk m c 1 ⟨0, h⟩) (k0_pay2 (F := F))
  | n + 1, h => step (iblk m c 0 ⟨n + 1, h⟩) (iblk m c 1 ⟨n + 1, h⟩) (acc c n (Nat.lt_of_succ_lt h))

theorem acc_zero (c : Dev nD) (t : Fin cfg0.N) (h : t.val = 0) :
    acc m c t.val t.isLt = step (iblk m c 0 t) (iblk m c 1 t) (k0_pay2 (F := F)) := by
  obtain ⟨n, hn⟩ := t
  cases n with
  | zero => rfl
  | succ n => exact absurd h (Nat.succ_ne_zero n)

theorem acc_pos (c : Dev nD) (t : Fin cfg0.N) (h : t.val ≠ 0) :
    acc m c t.val t.isLt = step (iblk m c 0 t) (iblk m c 1 t) (acc m c (t.val - 1) (Nat.lt_of_le_of_lt (Nat.sub_le _ _) t.isLt)) := by
  obtain ⟨n, hn⟩ := t
  cases n with
  | zero => exact absurd rfl h
  | succ n => rfl

/-- The scratch cell, a whole buffer of the core's own. -/
abbrev scM : Memref sig .tc .vmem S1x1 .f32 := Memref.whole cc0_scratch0

/-- The region's invariant before point n: at first the cell at anything, afterwards at the total the point before left. -/
def PhiS (c : Dev nD) : (n : ℕ) → n ≤ cfg0.N → sProp 𝕄
  | 0, _ => iprop(∃ d, owns (c : Thread nD τ) scM fullShare d)
  | n + 1, hn => owns (c : Thread nD τ) scM fullShare (acc m c n hn)

theorem PhiS_zero (c : Dev nD) (n : ℕ) (h : n ≤ cfg0.N) (hz : n = 0) :
    PhiS m c n h = iprop(∃ d, owns (c : Thread nD τ) scM fullShare d) := by
  subst hz; rfl
theorem PhiS_succ (c : Dev nD) (n : ℕ) (hn : n < cfg0.N) :
    PhiS m c (n + 1) hn = owns (c : Thread nD τ) scM fullShare (acc m c n hn) := rfl
theorem PhiS_pos (c : Dev nD) (n : ℕ) (h : n ≤ cfg0.N) (hz : n ≠ 0) :
    PhiS m c n h = owns (c : Thread nD τ) scM fullShare (acc m c (n - 1) (by omega)) := by
  cases n with
  | zero => exact absurd rfl hz
  | succ n => rfl

/-! ## The proof data -/

/-- The arrays as the region finds them; after the body each input's buffer at its block and the output's at the running
    total; the invariant the scratch cell; the one array behind both input windows held by each at half its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = acc m c t.val t.isLt := by dsimp only [dats]

/-- Both input windows are fetched at every point: their current buffers hold their blocks. -/
theorem before0 (c : Dev nD) (t : Fin cfg0.N) (d) : (dats m 0 c).before 0 t d = iblk m c 0 t := by
  unfold Dat.before; rw [if_pos (fetch0_0 t)]
  unfold Dat.fetched Dat.blockOf iblk; rw [A_eq]; try rfl
theorem before1 (c : Dev nD) (t : Fin cfg0.N) (d) : (dats m 0 c).before 1 t d = iblk m c 1 t := by
  unfold Dat.before; rw [if_pos (fetch0_1 t)]
  unfold Dat.fetched Dat.blockOf iblk; rw [A_eq]; try rfl

/-! ## The body obligation -/

abbrev ms0 (t : Fin cfg0.N) : Memref sig .tc .vmem S1x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point: the case the point is in is run on the staged blocks and the cell's contents; the cell
    comes back at this point's total, the output block untouched except at the last point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 62 := lt_of_lt_of_eq t.isLt (show cfg0.N = 62 from N_0)
  by_cases hl : t.val = 61
  · have hc1 : condLast (grid0.coords t) := (hcondLast t).mpr hl
    have hc0 : ¬condFirst (grid0.coords t) := fun h => by have := (hcondFirst t).mp h; omega
    have hz : t.val ≠ 0 := by omega
    rw [show (dats m 0 c).leavesExact 2 t = owns (c : Thread nD τ) (ms2 t) fullShare ((dats m 0 c).after 2 t) from by
      unfold Dat.leavesExact; rw [live2 t hl], after2]
    rw [PhiS_castSucc m c t, PhiS_pos m c _ _ hz, acc_pos m c t hz]
    iintro ⟨HS, Ho, ⟨%d0, H0⟩, ⟨%d1, H1⟩, ⟨%d2, H2⟩⟩
    iapply (runLast c (grid0.coords t) (ms0 t) (hs0 t) (ms1 t) (hs1 t) (ms2 t) (hs2 t) scM (Memref.isWhole_whole _) hc0 hc1 (iblk m c 0 t) (iblk m c 1 t) _ _ Set.univ _)
    isplitl [H0]; · iexact H0
    isplitl [H1]; · iexact H1
    isplitl [H2]; · iexact H2
    isplitl [HS]; · iexact HS
    iintro ⟨H0, H1, H2, HS⟩
    isplitl [HS]; · iexact HS
    isplitl [Ho]; · iexact Ho
    isplitl [H0]; · iexact H0
    isplitl [H1]; · iexact H1
    iexact H2
  · have hc1 : ¬condLast (grid0.coords t) := fun h => hl ((hcondLast t).mp h)
    rw [Dat.leavesExact_idle (dats m 0 c) 2 t (idle2 t hl) (noFlush2 t hl)]
    by_cases hz : t.val = 0
    · have hc0 : condFirst (grid0.coords t) := (hcondFirst t).mpr hz
      rw [PhiS_castSucc m c t, PhiS_zero m c _ _ hz, acc_zero m c t hz]
      iintro ⟨⟨%ds, HS⟩, Ho, ⟨%d0, H0⟩, ⟨%d1, H1⟩, ⟨%d2, H2⟩⟩
      iapply (runFirst c (grid0.coords t) (ms0 t) (hs0 t) (ms1 t) (hs1 t) (ms2 t) (hs2 t) scM (Memref.isWhole_whole _) hc0 hc1 (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2
    · have hc0 : ¬condFirst (grid0.coords t) := fun h => hz ((hcondFirst t).mp h)
      rw [PhiS_castSucc m c t, PhiS_pos m c _ _ hz, acc_pos m c t hz]
      iintro ⟨HS, Ho, ⟨%d0, H0⟩, ⟨%d1, H1⟩, ⟨%d2, H2⟩⟩
      iapply (runMid c (grid0.coords t) (ms0 t) (hs0 t) (ms1 t) (hs1 t) (ms2 t) (hs2 t) scM (Memref.isWhole_whole _) hc0 hc1 (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand
end
-- ==== Proof.BitsSegs.lean ====
import proofs.«177037_j60825326846106_1_alg».proof.Proof.BitsRun
import Idealize.ShloMosaic.Lib.Pipeline.Frame
import Idealize.ShloMosaic.Lib.StableHlo.Run
import Idealize.ShloMosaic.Lib.Decide
import Idealize.ShloMosaic.Lib.Pipeline.Regions

set_option maxRecDepth 16384

noncomputable section

/-! # The program as four segments, and its run

Two stretches of host operations, the kernel region, and the three operations after it. The region is entered
from all the core's unscoped buffers held whole: the one array both input windows read is dealt to them at half
shares, the output's array goes in whole, everything else bypasses the region. It is left with the output's array at
the last point's total; that buffer and the three the tail writes are then held at a valuation the tail's operations
run from, while the two argument buffers ride along untouched to the end, where they and the result are read. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the tail runs on -/

/-- The output's array when the region ends: what the write-backs left. -/
def X9 (c : Dev nD) : (⟨S1x1, .f32⟩ : BufTy).Contents (Elt F) := (dats m 0 c).arrAt 2 cfg0.N

/-- The core's buffers when the region ends: as at its entry, the output's array at what the region left. -/
def W (c : Dev nD) : Valuation τ sig (Elt F) := (StableHlo.nullary (τ := τ) main_v9 (X9 m c)).result (V₂ m c)

theorem W_v9 (c : Dev nD) : W m c (Proc.devRef .tc main_v9) = X9 m c := StableHlo.nullary_result _ _ _ _
theorem W_ne (c : Dev nD) {r : Ref sig .tc} (h : r ≠ main_v9) : W m c (Proc.devRef .tc r) = V m c r :=
  StableHlo.nullary_result_ne _ _ _ _ h

/-- A list of the core's references as a set of device buffers. -/
def refsOf (l : List (Ref sig .tc)) : Finset (DevRef τ sig) :=
  l.toFinset.map ⟨Proc.devRef (sig := sig) (.tc : Proc τ), Proc.devRef_injective _⟩

/-- Holding such a set is holding its buffers one by one. -/
theorem held_refsOf (c : Dev nD) (l : List (Ref sig .tc)) (hl : l.Nodup) (Wv : Valuation τ sig (Elt F)) :
    (StableHlo.held (c : Thread nD τ) (refsOf l) Wv : sProp 𝕄)
      = bigSepL l fun r => (((c : Thread nD τ).loc r) ↦{fullShare} Wv (Proc.devRef .tc r) : sProp 𝕄) := by
  unfold StableHlo.held refsOf
  rw [bigSep_map, bigSep_eq_bigSepL l hl]
  rfl

/-- The four buffers the operations after the region touch. -/
abbrev tailRefs : List (Ref sig .tc) := [main_v9, main_v10, main_cst, main_v11]
abbrev S4 : Finset (DevRef τ sig) := refsOf tailRefs

/-- Holding the four is holding each. -/
theorem held_S4 (c : Dev nD) (Wv : Valuation τ sig (Elt F)) :
    (StableHlo.held (c : Thread nD τ) S4 Wv : sProp 𝕄)
      = iprop((((c : Thread nD τ).loc main_v9) ↦{fullShare} Wv (Proc.devRef .tc main_v9))
          ∗ (((c : Thread nD τ).loc main_v10) ↦{fullShare} Wv (Proc.devRef .tc main_v10))
          ∗ (((c : Thread nD τ).loc main_cst) ↦{fullShare} Wv (Proc.devRef .tc main_cst))
          ∗ (((c : Thread nD τ).loc main_v11) ↦{fullShare} Wv (Proc.devRef .tc main_v11))) :=
  (held_refsOf c tailRefs (by decide) Wv).trans rfl

/-! ## The windows' arrays -/

/-- The distinct buffers behind the windows' arrays are two. -/
theorem arrBufs_eq (c : Dev nD) (V' : (b : Ref sig .tc) → Buf (Elt F) ((c : Thread nD τ).loc b)) :
    (Pipeline.arrBufs spec0 c V' : sProp 𝕄)
      = iprop((((c : Thread nD τ).loc main_v8) ↦{fullShare} V' main_v8) ∗ (((c : Thread nD τ).loc main_v9) ↦{fullShare} V' main_v9)) := by
  unfold Pipeline.arrBufs
  exact bigSep_eq_bigSepL_of_eq [main_v8, main_v9] (by decide) (by decide) _

/-- The proof data's arrays: the shared array at each input window's half, the output's whole. -/
theorem arrays_eq3 (c : Dev nD) (Fw : (w : Fin cfg0.W) → Buf (Elt F) ((cfg0.win w).arr.view.loc (c : Thread nD τ))) :
    ((dats m 0 c).arrays Fw : sProp 𝕄)
      = iprop((((c : Thread nD τ).loc main_v8) ↦{fullShare.left} Fw 0) ∗ (((c : Thread nD τ).loc main_v8) ↦{fullShare.right} Fw 1)
          ∗ (((c : Thread nD τ).loc main_v9) ↦{fullShare} Fw 2)) := by
  unfold Dat.arrays; rw [bigSep_W0]
  rw [(arr_whole0 0).set_eq_univ, (arr_whole0 2).set_eq_univ]
  rfl

/-- ENTRY: all the unscoped buffers at the entry contents are the arrays at the proof data's shares and the rest. -/
theorem entry_arrays (c : Dev nD) :
    (StableHlo.held (c : Thread nD τ) (Pipeline.ucRefs τ sig) (V₂ m c) : sProp 𝕄)
      ⊢ iprop((dats m 0 c).arrays ((dats m 0 c).arrAt · 0) ∗ Pipeline.unscopedRest spec0 c (V m c)) := by
  rw [show (StableHlo.held (c : Thread nD τ) (Pipeline.ucRefs τ sig) (V₂ m c) : sProp 𝕄) = unscopedBufs c (V m c) from
    (Pipeline.unscopedBufs_held c _).symm]
  rw [Pipeline.unscopedBufs_split₀ cfgs 0 winFacts₀0.arr_unscoped c (V m c)]
  refine sep_mono ?_ .rfl
  rw [arrBufs_eq, arrays_eq3]
  iintro ⟨H8, H9⟩
  ihave H8' := (pointsTo_share (PosShare.mem_left_op_right fullShare)).1 $$ H8
  icases H8' with ⟨H8l, H8r⟩
  isplitl [H8l]; · iexact H8l
  isplitl [H8r]; · iexact H8r
  iexact H9

/-- What rides past the tail to the end: the two argument buffers, as the region found them. -/
abbrev Keep (c : Dev nD) : sProp 𝕄 :=
  iprop((((c : Thread nD τ).loc main_arg0) ↦{fullShare} V m c main_arg0) ∗ (((c : Thread nD τ).loc main_arg1) ↦{fullShare} V m c main_arg1))

/-- EXIT: the arrays at their final contents and the bypassing buffers give the tail its four buffers at the exit
    valuation, and the arguments. -/
theorem exit_state (c : Dev nD) :
    iprop((dats m 0 c).arrays ((dats m 0 c).arrAt · cfg0.N) ∗ Pipeline.unscopedRest spec0 c (V m c))
      ⊢ (iprop(StableHlo.held (c : Thread nD τ) S4 (W m c) ∗ Keep m c) : sProp 𝕄) := by
  rw [arrays_eq3, unscopedRest0_eq, held_S4]
  rw [W_v9, W_ne m c (show main_v10 ≠ main_v9 by decide), W_ne m c (show main_cst ≠ main_v9 by decide), W_ne m c (show main_v11 ≠ main_v9 by decide)]
  iintro ⟨⟨-, -, H9⟩, Ha0, Ha1, -, -, -, -, -, -, -, -, -, -, -, -, H10, Hcst, H11⟩
  isplitr [Ha0 Ha1]
  · isplitl [H9]; · iexact H9
    isplitl [H10]; · iexact H10
    isplitl [Hcst]; · iexact Hcst
    iexact H11
  isplitl [Ha0]; · iexact Ha0
  iexact Ha1

/-! ## No host operation before the region writes an argument -/

theorem not_mem_single (b y : Ref sig .tc) (h : b ≠ y) (S : Finset (DevRef τ sig)) (hS : S = {Proc.devRef .tc y}) :
    Proc.devRef .tc b ∉ S := by
  subst hS; rw [Finset.mem_singleton]; exact StableHlo.devRef_ne_of_ne h

theorem nw0 (b : Ref sig .tc) (hb : b ∉ [main_call0_v0, main_call0_v1_0, main_v0]) :
    ∀ op ∈ (hostOps0 : List (HloOp τ sig (Elt F))), Proc.devRef .tc b ∉ op.writes := by
  intro op hop
  simp only [hostOps0, List.mem_cons, List.mem_nil_iff, or_false] at hop
  rcases hop with rfl | rfl | rfl
  · exact not_mem_single b main_call0_v0 (fun e => hb (by subst e; decide)) _ rfl
  · exact not_mem_single b main_call0_v1_0 (fun e => hb (by subst e; decide)) _ rfl
  · exact not_mem_single b main_v0 (fun e => hb (by subst e; decide)) _ rfl

theorem nw1 (b : Ref sig .tc) (hb : b ∉ [main_c, main_v1, main_v2, main_c_0, main_v3, main_v4, main_v5, main_v6, main_v7, main_v8]) :
    ∀ op ∈ (hostOps0_1 : List (HloOp τ sig (Elt F))), Proc.devRef .tc b ∉ op.writes := by
  intro op hop
  simp only [hostOps0_1, List.mem_cons, List.mem_nil_iff, or_false] at hop
  rcases hop with rfl | rfl | rfl | rfl | rfl | rfl | rfl | rfl | rfl | rfl
  · exact not_mem_single b main_c (fun e => hb (by subst e; decide)) _ rfl
  · exact not_mem_single b main_v1 (fun e => hb (by subst e; decide)) _ rfl
  · exact not_mem_single b main_v2 (fun e => hb (by subst e; decide)) _ rfl
  · exact not_mem_single b main_c_0 (fun e => hb (by subst e; decide)) _ rfl
  · exact not_mem_single b main_v3 (fun e => hb (by subst e; decide)) _ rfl
  · exact not_mem_single b main_v4 (fun e => hb (by subst e; decide)) _ rfl
  · exact not_mem_single b main_v5 (fun e => hb (by subst e; decide)) _ rfl
  · exact not_mem_single b main_v6 (fun e => hb (by subst e; decide)) _ rfl
  · exact not_mem_single b main_v7 (fun e => hb (by subst e; decide)) _ rfl
  · exact not_mem_single b main_v8 (fun e => hb (by subst e; decide)) _ rfl

/-- Each argument reaches the region, and the end, as launched. -/
theorem V_arg0 (c : Dev nD) : V m c main_arg0 = m ((c : Thread nD τ).loc main_arg0) :=
  (StableHlo.after_of_forall_not_mem (b := Proc.devRef .tc main_arg0) hostOps0_1 (V₁ m c) (nw1 main_arg0 (by decide))).trans
    (StableHlo.after_of_forall_not_mem (b := Proc.devRef .tc main_arg0) hostOps0 (V₀ m c) (nw0 main_arg0 (by decide)))
theorem V_arg1 (c : Dev nD) : V m c main_arg1 = m ((c : Thread nD τ).loc main_arg1) :=
  (StableHlo.after_of_forall_not_mem (b := Proc.devRef .tc main_arg1) hostOps0_1 (V₁ m c) (nw1 main_arg1 (by decide))).trans
    (StableHlo.after_of_forall_not_mem (b := Proc.devRef .tc main_arg1) hostOps0 (V₀ m c) (nw0 main_arg1 (by decide)))

/-! ## The segments -/

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is all of the certificate's. -/
abbrev EP : Emb (UR sig nD τ) (MT nD τ sig Unit (Elt F) ℕ (UR sig nD τ) ℕ) := emb₁
abbrev 𝒱₀ : Variants := Variants.none
/-- What rides beside the buffers: the core owing nothing. -/
abbrev R (c : Dev nD) : sProp 𝕄 := iprop(∃ Wt, owes (c : Thread nD τ) (0 : CellTallies nD τ sig Unit) Wt)

/-- The argsort's three operations, over all the unscoped buffers. -/
def segA : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The ten operations up to the reshape, over the same. -/
def segB : Pipeline.HostSeg (Name := ℕ) (U := UR sig nD τ) (pcfgs (F := F)) defs₀ 𝒱₀ L lv :=
  Pipeline.HostSeg.ofOps _ _ _ _ _ (Pipeline.ucRefs τ sig) hostOps0_1 (fun op h => Pipeline.sub_ucRefs op ((List.forall_iff_forall_mem.mp hostOps0_1_sub) op h))
    (by intro _ h; (repeat (cases h with | head => rfl | tail _ h => ?_)); exact nomatch h) (V₁ m) R

theorem mem_S4 {r : Ref sig .tc} (h : r ∈ tailRefs) : (Proc.devRef .tc r : DevRef τ sig) ∈ (S4 : Finset (DevRef τ sig)) :=
  Finset.mem_map_of_mem _ (List.mem_toFinset.mpr h)

theorem tail_sub : ∀ op ∈ (hostOps1 : List (HloOp τ sig (Elt F))), op.bufs ⊆ S4 := by
  intro op hop
  simp only [hostOps1, List.mem_cons, List.mem_nil_iff, or_false] at hop
  rcases hop with rfl | rfl | rfl
  · rw [StableHlo.reshape_bufs]; intro b hb; simp only [Finset.mem_insert, Finset.mem_singleton] at hb
    rcases hb with rfl | rfl <;> exact mem_S4 (by decide)
  · rw [StableHlo.nullary_bufs]; intro b hb; rw [Finset.mem_singleton] at hb; subst hb; exact mem_S4 (by decide)
  · rw [StableHlo.binary_bufs]; intro b hb; simp only [Finset.mem_insert, Finset.mem_singleton] at hb
    rcases hb with rfl | rfl | rfl <;> exact mem_S4 (by decide)

/-- The three operations after the region, over the four buffers they touch; the arguments ride along. -/
def segT : Pipeline.HostSeg (Name := ℕ) (U := UR sig nD τ) (pcfgs (F := F)) defs₀ 𝒱₀ L lv :=
  Pipeline.HostSeg.ofOps _ _ _ _ _ S4 hostOps1 tail_sub
    (by intro _ h; (repeat (cases h with | head => rfl | tail _ h => ?_)); exact nomatch h) (W m) (fun c => iprop(Keep m c ∗ R c))

set_option backward.isDefEq.respectTransparency.types false in
/-- THE REGION: entered from all the unscoped buffers at the entry contents, left with the tail's four buffers at the
    exit valuation and the arguments; nothing but the scratch cell enters the invariant. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₂ m c) ∗ R c)
  post c := iprop(StableHlo.held (c : Thread nD τ) S4 (W m c) ∗ (Keep m c ∗ R c))
  X c := iprop(emp)
  Y c := iprop(emp)
  Z c := Pipeline.unscopedRest spec0 c (V m c)
  hentry c := by
    iintro ⟨⟨Hub, HO⟩, -, -⟩
    ihave H := (entry_arrays m c) $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitr; · iempintro
    iexact Hz
  hin c := by
    rw [show (dats m 0 c).Φ 0 = PhiS m c 0 (Nat.zero_le _) from rfl, PhiS_zero m c 0 _ rfl]
    show iprop(_ ∗ _ ∗ Pipeline.scopedRest spec0 c) ⊢ _
    rw [scopedRest0_eq]; simp only [owns_whole]
    iintro ⟨-, -, Hr⟩
    iexact Hr
  hout c := by
    rw [show (dats m 0 c).Φ (Fin.last cfg0.N) = PhiS m c cfg0.N (le_refl _) from rfl,
      PhiS_pos m c _ _ (by have : cfg0.N = 62 := N_0; omega)]
    show _ ⊢ iprop(emp ∗ Pipeline.ownSems0 (fun k : PEmpty => k.elim) c ∗ Pipeline.scopedRest spec0 c)
    rw [Pipeline.ownSems0_none, scopedRest0_eq]; simp only [owns_whole]
    iintro H
    isplitr; · iempintro
    isplitr; · iempintro
    iexists _; iexact H
  hexit c := by
    iintro ⟨Ha, HO, -, Hz⟩
    ihave H := (exit_state m c) $$ [Ha Hz]
    · isplitl [Ha] <;> iassumption
    icases H with ⟨Hh, Hk⟩
    imodintro
    isplitl [Hh]; · iexact Hh
    isplitl [Hk]; · iexact Hk
    unfold Pipeline.Dat.owesAt Pipeline.owesWithin
    icases HO with ⟨%Wt, -, HO⟩; iexists Wt; iexact HO

/-- @main as the list of the four. -/
abbrev segs : List (Pipeline.Seg (pcfgs (F := F)) adm (dats m) () defs₀ 𝒱₀ L lv) :=
  [.host (segA m), .host (segB m), .region (reg0 m), .host (segT m)]

/-! ## The run -/

/-- The launch element: the pipeline library's at the staging cells and the pipeline's transfers. -/
def u₀ : UR sig nD τ := initOf (Pipeline.cells cfgs cellOf_inj) (Pipeline.launchToks cfgs cellOf_inj)

/-- The result buffer at the end: the three operations after the region, from the exit valuation. -/
def resOf (c : Dev nD) : (⟨S_, .f32⟩ : BufTy).Contents (Elt F) := StableHlo.after hostOps1 (W m c) (Proc.devRef .tc main_v11)

/-- The last thread state: the tail's four buffers after its operations, and the arguments. -/
abbrev Tₙ (c : Dev nD) : sProp 𝕄 :=
  iprop(StableHlo.held (c : Thread nD τ) S4 (StableHlo.after hostOps1 (W m c)) ∗ Keep m c)

/-- The post: the result buffer at `resOf`, both arguments as launched. -/
def QC : PUnit × MemSt nD τ sig (Elt F) → Prop := fun r => ∀ c : Dev nD,
  r.2.mem ((c.tc : Thread nD τ).loc main_v11) = resOf m c
    ∧ r.2.mem ((c.tc : Thread nD τ).loc main_arg0) = m ((c.tc : Thread nD τ).loc main_arg0)
    ∧ r.2.mem ((c.tc : Thread nD τ).loc main_arg1) = m ((c.tc : Thread nD τ).loc main_arg1)

set_option backward.isDefEq.respectTransparency.types false in
/-- At the compiled mesh, for any float values, from any memory with zero counters: every weakly fair execution of
    @main on the TensorCores terminates, nothing faulting, with the result buffer at `resOf` and the arguments unchanged. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by
      have e : main (F := F) c = Pipeline.Seg.run (segs m) :=
        (main_chain c).trans ((Pipeline.Seg.run_eq_chain (segs m)).trans rfl).symm
      rw [e])
    (by simp only [Pipeline.Seg.pipes_host, Pipeline.Seg.pipes_region, Pipeline.Seg.pipes_nil]; decide) (O₀ := 0) (hL := fun _ _ => rfl) (G := fun _ => iprop(emp)) (u₀ := u₀)
    (hu₀ := by
      show (ownU (initOf (Pipeline.cells (Pipeline.pin (pcfgs (F := F)) adm) cellOf_inj) (Pipeline.launchToks (Pipeline.pin (pcfgs (F := F)) adm) cellOf_inj)) : sProp 𝕄) ⊢ _
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun _ => .rfl, fun c => by
      show iprop(StableHlo.held (c : Thread nD τ) S4 (StableHlo.after hostOps1 (W m c)) ∗ (Keep m c ∗ R c)) ⊢ iprop(Tₙ m c ∗ R c)
      iintro ⟨Hh, Hk, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v11) = resOf m c
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      dsimp only [Tₙ, Keep]; rw [held_S4, V_arg0, V_arg1]
      iintro ⟨⟨⟨-, -, -, H11⟩, H0, H1⟩, HSI⟩
      icombine HSI H11 gives %h11
      icombine HSI H0 gives %h0
      icombine HSI H1 gives %h1
      imodintro
      isplitr
      · ipureintro
        exact ⟨Buf.eq_of_forall_mem_univ h11, Buf.eq_of_forall_mem_univ h0, Buf.eq_of_forall_mem_univ h1⟩
      iexact HSI)
    (hQ := fun _ h => h)

end Cert.Kernel.Hand
end
-- ==== Proof.IdealBody.lean ====
import proofs.«177037_j60825326846106_1_alg».proof.Proof.Gen.KernelIdeal.Launch
import proofs.«177037_j60825326846106_1_alg».proof.Proof.Gen.KernelIdeal.Skeleton
import proofs.«177037_j60825326846106_1_alg».proof.Proof.Gen.KernelIdeal.Points
import Idealize.ShloMosaic.Lib.Pipeline.FrameBody
import Idealize.ShloMosaic.Lib.Pipeline.Kit
import Idealize.ShloMosaic.Lib.Pipeline.Regions
import Idealize.ShloMosaic.Lib.Ring
import Idealize.ShloMosaic.Lib.Pipeline.Value
import Idealize.ShloMosaic.Lib.Tactic

set_option maxRecDepth 16384

noncomputable section

/-! # The kernel body at one grid point

The body keeps a running total in a 1 x 1 scratch cell. At the first grid point it zeroes the cell; at every point it
adds to the cell the sum over a 512 x 1024 tile of max(1 - sqrt(max(|a_i|^2 + |b_j|^2 - 2 a_i.b_j, 0)), 0), where the
a_i are the 512 rows of the first staged block and the b_j the 1024 rows of the second; at the last grid point it
copies the cell into the 1 x 1 output block. Three cases of the two tests on the grid coordinates occur, and each is
run once on arbitrary contents: the staged blocks come back unchanged, the cell holds the old total plus the tile's
sum (from zero at the first point), and the output block is untouched except at the last point, where it receives
the cell's new contents. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point of the grid: both coordinates zero, as the body computes the test. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The last point of the grid, as the body computes the test. -/
abbrev condLast (i : grid0.Coords) : Prop := k0_cond2 i = 1#1

theorem hz2 : (![0, 0] : Fin 2 → ℕ) = fun _ => 0 := by funext a; fin_cases a <;> rfl
theorem hz3 : (![0, 0, 0] : Fin 3 → ℕ) = fun _ => 0 := by funext a; fin_cases a <;> rfl

/-- One point's contribution added to the running total: the body's arithmetic from the two staged blocks and the total so far. -/
def step (x0 : Vec F S1x512x128 .f32) (x1 : Vec F S1x1024x128 .f32) (xs : Vec F S1x1 .f32) : Vec F S1x1 .f32 :=
  k0_pay1 (k0_pay3 x0 x1 xs)

/-- A buffer read back after a last store through its whole rectangle holds that store's payload. -/
theorem read_store_whole {S : Shape} {e : EltTy} {sp : Space} (v : View sig .tc sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩), View.canon_cons_unit_zero hz]

theorem runFirst (c : Dev nD) (i : grid0.Coords) (arg2 : Memref sig .tc .vmem S1x512x128 .f32) (harg2 : arg2.IsWhole) (arg3 : Memref sig .tc .vmem S1x1024x128 .f32) (harg3 : arg3.IsWhole) (arg4 : Memref sig .tc .vmem S1x1 .f32) (harg4 : arg4.IsWhole) (arg5 : Memref sig .tc .vmem S1x1 .f32) (harg5 : arg5.IsWhole)
    (hc0 : condFirst i) (hc1 : ¬condLast i)
    (x0 : Vec F S1x512x128 .f32) (x1 : Vec F S1x1024x128 .f32) (xo : Vec F S1x1 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (step x0 x1 (k0_pay2 (F := F)))) -∗ K ⟨⟩))
      ⊢ wp frame (wpE (defs₀ (F := F)) Variants.none c none) E (cc0__pairwise_kernel i arg2 harg2 arg3 harg3 arg4 harg4 arg5 harg5) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  sl_unfold_words
  rw [read_store_whole (S := S1x1) _ _ hz2]
  simp only [View.readAt_eq_ld, harg2.read_unread, harg3.read_unread, harg4.read_unread, harg5.read_unread, View.ld_unit_zero (S := S1x512x128) hz3, View.ld_unit_zero (S := S1x1024x128) hz3, View.ld_unit_zero (S := S1x1) hz2,
    View.readCov_unit_zero (S := S1x1) _ hz2, read_store_whole (S := S1x1) _ _ hz2]
  try (unfold step; rfl)

theorem runMid (c : Dev nD) (i : grid0.Coords) (arg2 : Memref sig .tc .vmem S1x512x128 .f32) (harg2 : arg2.IsWhole) (arg3 : Memref sig .tc .vmem S1x1024x128 .f32) (harg3 : arg3.IsWhole) (arg4 : Memref sig .tc .vmem S1x1 .f32) (harg4 : arg4.IsWhole) (arg5 : Memref sig .tc .vmem S1x1 .f32) (harg5 : arg5.IsWhole)
    (hc0 : ¬condFirst i) (hc1 : ¬condLast i)
    (x0 : Vec F S1x512x128 .f32) (x1 : Vec F S1x1024x128 .f32) (xo : Vec F S1x1 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (step x0 x1 xs)) -∗ K ⟨⟩))
      ⊢ wp frame (wpE (defs₀ (F := F)) Variants.none c none) E (cc0__pairwise_kernel i arg2 harg2 arg3 harg3 arg4 harg4 arg5 harg5) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  sl_unfold_words
  rw [read_store_whole (S := S1x1) _ _ hz2]
  simp only [View.readAt_eq_ld, harg2.read_unread, harg3.read_unread, harg4.read_unread, harg5.read_unread, View.ld_unit_zero (S := S1x512x128) hz3, View.ld_unit_zero (S := S1x1024x128) hz3, View.ld_unit_zero (S := S1x1) hz2,
    View.readCov_unit_zero (S := S1x1) _ hz2, read_store_whole (S := S1x1) _ _ hz2]
  try (unfold step; rfl)

theorem runLast (c : Dev nD) (i : grid0.Coords) (arg2 : Memref sig .tc .vmem S1x512x128 .f32) (harg2 : arg2.IsWhole) (arg3 : Memref sig .tc .vmem S1x1024x128 .f32) (harg3 : arg3.IsWhole) (arg4 : Memref sig .tc .vmem S1x1 .f32) (harg4 : arg4.IsWhole) (arg5 : Memref sig .tc .vmem S1x1 .f32) (harg5 : arg5.IsWhole)
    (hc0 : ¬condFirst i) (hc1 : condLast i)
    (x0 : Vec F S1x512x128 .f32) (x1 : Vec F S1x1024x128 .f32) (xo : Vec F S1x1 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare (step x0 x1 xs) ∗ owns (c : Thread nD τ) arg5 fullShare (step x0 x1 xs)) -∗ K ⟨⟩))
      ⊢ wp frame (wpE (defs₀ (F := F)) Variants.none c none) E (cc0__pairwise_kernel i arg2 harg2 arg3 harg3 arg4 harg4 arg5 harg5) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_words
    rw [read_store_whole (S := S1x1) _ _ hz2]
    simp only [View.readAt_eq_ld, harg2.read_unread, harg3.read_unread, harg4.read_unread, harg5.read_unread, View.ld_unit_zero (S := S1x512x128) hz3, View.ld_unit_zero (S := S1x1024x128) hz3, View.ld_unit_zero (S := S1x1) hz2,
      View.readCov_unit_zero (S := S1x1) _ hz2, read_store_whole (S := S1x1) _ _ hz2]
    try (unfold step; rfl)
  iexists _; isplitr
  swap; · iexact HS
  ipureintro
  sl_unfold_words
  rw [read_store_whole (S := S1x1) _ _ hz2]
  simp only [View.readAt_eq_ld, harg2.read_unread, harg3.read_unread, harg4.read_unread, harg5.read_unread, View.ld_unit_zero (S := S1x512x128) hz3, View.ld_unit_zero (S := S1x1024x128) hz3, View.ld_unit_zero (S := S1x1) hz2,
    View.readCov_unit_zero (S := S1x1) _ hz2, read_store_whole (S := S1x1) _ _ hz2]
  try (unfold step; rfl)

end Cert.KernelIdeal.Hand
end
-- ==== Proof.IdealRun.lean ====
import proofs.«177037_j60825326846106_1_alg».proof.Proof.IdealBody
import Idealize.ShloMosaic.Lib.Pipeline.Frame
import Idealize.ShloMosaic.Lib.StableHlo.Run
import Idealize.ShloMosaic.Lib.Decide

set_option maxRecDepth 16384

noncomputable section

/-! # The kernel program's run

The program is thirteen host operations (a stable argsort of the labels, the gather of the rows in that order, the
reshape to 32 classes of 1024 rows), one kernel region over a 2 x 31 grid, and three host operations (the 1 x 1
result read as a scalar and divided by 31 * 1024 * 1024). At grid point t = 31 * h + c the region stages rows
512 h .. 512 h + 511 of class c and all 1024 rows of class c + 1 out of ONE array, held by two input windows at half
shares, and the body adds that tile's sum to a running total kept in a scratch cell; the last point copies the total to
the output block, which is the only block ever written back. Here: the proof data (the total after each point by
recursion on the point), the body obligation from the three cases of the body, the program as four segments, and its
run — every weakly fair execution terminates with the two arguments unchanged and the result buffer holding the
total after the last point, read as a scalar and divided. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two tests of the body, over the grid -/

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 61 :=
  (by decide +kernel : ∀ t : Fin grid0.N, condLast (grid0.coords t) ↔ t.val = 61)
/-- The two input windows are never idle; the output window is idle, and not written back, except at the last point. -/
theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, t.val ≠ 61 → cfg0.idle 2 (grid0.coords t) = true :=
  (by decide +kernel : ∀ t : Fin grid0.N, t.val ≠ 61 → cfg0.idle 2 (grid0.coords t) = true)
theorem live2 : ∀ t : Fin cfg0.N, t.val = 61 → cfg0.idle 2 (grid0.coords t) = false :=
  (by decide +kernel : ∀ t : Fin grid0.N, t.val = 61 → cfg0.idle 2 (grid0.coords t) = false)
theorem noFlush2 : ∀ t : Fin cfg0.N, t.val ≠ 61 → (cfg0.win 2).flush t = false :=
  (by decide +kernel : ∀ t : Fin grid0.N, t.val ≠ 61 → win0_2.flush t = false)

/-! ## The buffers' contents when the region is entered -/

/-- The device's buffers at launch, after the argsort's three operations, and after the ten operations before the region. -/
abbrev V₀ (c : Dev nD) : Valuation τ sig (Elt F) := fun b => m (c, b)
abbrev V₁ (c : Dev nD) : Valuation τ sig (Elt F) := StableHlo.after hostOps0 (V₀ m c)
abbrev V₂ (c : Dev nD) : Valuation τ sig (Elt F) := StableHlo.after hostOps0_1 (V₁ m c)
/-- The same read at a reference of the core. -/
abbrev V (c : Dev nD) (b : Ref sig .tc) : Buf (Elt F) ((c : Thread nD τ).loc b) := V₂ m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The running total after point n: from zero at the first point, each point adds its tile's sum. -/
def acc (c : Dev nD) : (n : ℕ) → n < cfg0.N → Vec F S1x1 .f32
  | 0, h => step (iblk m c 0 ⟨0, h⟩) (iblk m c 1 ⟨0, h⟩) (k0_pay2 (F := F))
  | n + 1, h => step (iblk m c 0 ⟨n + 1, h⟩) (iblk m c 1 ⟨n + 1, h⟩) (acc c n (Nat.lt_of_succ_lt h))

theorem acc_zero (c : Dev nD) (t : Fin cfg0.N) (h : t.val = 0) :
    acc m c t.val t.isLt = step (iblk m c 0 t) (iblk m c 1 t) (k0_pay2 (F := F)) := by
  obtain ⟨n, hn⟩ := t
  cases n with
  | zero => rfl
  | succ n => exact absurd h (Nat.succ_ne_zero n)

theorem acc_pos (c : Dev nD) (t : Fin cfg0.N) (h : t.val ≠ 0) :
    acc m c t.val t.isLt = step (iblk m c 0 t) (iblk m c 1 t) (acc m c (t.val - 1) (Nat.lt_of_le_of_lt (Nat.sub_le _ _) t.isLt)) := by
  obtain ⟨n, hn⟩ := t
  cases n with
  | zero => exact absurd rfl h
  | succ n => rfl

/-- The scratch cell, a whole buffer of the core's own. -/
abbrev scM : Memref sig .tc .vmem S1x1 .f32 := Memref.whole cc0_scratch0

/-- The region's invariant before point n: at first the cell at anything, afterwards at the total the point before left. -/
def PhiS (c : Dev nD) : (n : ℕ) → n ≤ cfg0.N → sProp 𝕄
  | 0, _ => iprop(∃ d, owns (c : Thread nD τ) scM fullShare d)
  | n + 1, hn => owns (c : Thread nD τ) scM fullShare (acc m c n hn)

theorem PhiS_zero (c : Dev nD) (n : ℕ) (h : n ≤ cfg0.N) (hz : n = 0) :
    PhiS m c n h = iprop(∃ d, owns (c : Thread nD τ) scM fullShare d) := by
  subst hz; rfl
theorem PhiS_succ (c : Dev nD) (n : ℕ) (hn : n < cfg0.N) :
    PhiS m c (n + 1) hn = owns (c : Thread nD τ) scM fullShare (acc m c n hn) := rfl
theorem PhiS_pos (c : Dev nD) (n : ℕ) (h : n ≤ cfg0.N) (hz : n ≠ 0) :
    PhiS m c n h = owns (c : Thread nD τ) scM fullShare (acc m c (n - 1) (by omega)) := by
  cases n with
  | zero => exact absurd rfl hz
  | succ n => rfl

/-! ## The proof data -/

/-- The arrays as the region finds them; after the body each input's buffer at its block and the output's at the running
    total; the invariant the scratch cell; the one array behind both input windows held by each at half its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = acc m c t.val t.isLt := by dsimp only [dats]

/-- Both input windows are fetched at every point: their current buffers hold their blocks. -/
theorem before0 (c : Dev nD) (t : Fin cfg0.N) (d) : (dats m 0 c).before 0 t d = iblk m c 0 t := by
  unfold Dat.before; rw [if_pos (fetch0_0 t)]
  unfold Dat.fetched Dat.blockOf iblk; rw [A_eq]; try rfl
theorem before1 (c : Dev nD) (t : Fin cfg0.N) (d) : (dats m 0 c).before 1 t d = iblk m c 1 t := by
  unfold Dat.before; rw [if_pos (fetch0_1 t)]
  unfold Dat.fetched Dat.blockOf iblk; rw [A_eq]; try rfl

/-! ## The body obligation -/

abbrev ms0 (t : Fin cfg0.N) : Memref sig .tc .vmem S1x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point: the case the point is in is run on the staged blocks and the cell's contents; the cell
    comes back at this point's total, the output block untouched except at the last point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 62 := lt_of_lt_of_eq t.isLt (show cfg0.N = 62 from N_0)
  by_cases hl : t.val = 61
  · have hc1 : condLast (grid0.coords t) := (hcondLast t).mpr hl
    have hc0 : ¬condFirst (grid0.coords t) := fun h => by have := (hcondFirst t).mp h; omega
    have hz : t.val ≠ 0 := by omega
    rw [show (dats m 0 c).leavesExact 2 t = owns (c : Thread nD τ) (ms2 t) fullShare ((dats m 0 c).after 2 t) from by
      unfold Dat.leavesExact; rw [live2 t hl], after2]
    rw [PhiS_castSucc m c t, PhiS_pos m c _ _ hz, acc_pos m c t hz]
    iintro ⟨HS, Ho, ⟨%d0, H0⟩, ⟨%d1, H1⟩, ⟨%d2, H2⟩⟩
    iapply (runLast c (grid0.coords t) (ms0 t) (hs0 t) (ms1 t) (hs1 t) (ms2 t) (hs2 t) scM (Memref.isWhole_whole _) hc0 hc1 (iblk m c 0 t) (iblk m c 1 t) _ _ Set.univ _)
    isplitl [H0]; · iexact H0
    isplitl [H1]; · iexact H1
    isplitl [H2]; · iexact H2
    isplitl [HS]; · iexact HS
    iintro ⟨H0, H1, H2, HS⟩
    isplitl [HS]; · iexact HS
    isplitl [Ho]; · iexact Ho
    isplitl [H0]; · iexact H0
    isplitl [H1]; · iexact H1
    iexact H2
  · have hc1 : ¬condLast (grid0.coords t) := fun h => hl ((hcondLast t).mp h)
    rw [Dat.leavesExact_idle (dats m 0 c) 2 t (idle2 t hl) (noFlush2 t hl)]
    by_cases hz : t.val = 0
    · have hc0 : condFirst (grid0.coords t) := (hcondFirst t).mpr hz
      rw [PhiS_castSucc m c t, PhiS_zero m c _ _ hz, acc_zero m c t hz]
      iintro ⟨⟨%ds, HS⟩, Ho, ⟨%d0, H0⟩, ⟨%d1, H1⟩, ⟨%d2, H2⟩⟩
      iapply (runFirst c (grid0.coords t) (ms0 t) (hs0 t) (ms1 t) (hs1 t) (ms2 t) (hs2 t) scM (Memref.isWhole_whole _) hc0 hc1 (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2
    · have hc0 : ¬condFirst (grid0.coords t) := fun h => hz ((hcondFirst t).mp h)
      rw [PhiS_castSucc m c t, PhiS_pos m c _ _ hz, acc_pos m c t hz]
      iintro ⟨HS, Ho, ⟨%d0, H0⟩, ⟨%d1, H1⟩, ⟨%d2, H2⟩⟩
      iapply (runMid c (grid0.coords t) (ms0 t) (hs0 t) (ms1 t) (hs1 t) (ms2 t) (hs2 t) scM (Memref.isWhole_whole _) hc0 hc1 (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand
end
-- ==== Proof.IdealSegs.lean ====
import proofs.«177037_j60825326846106_1_alg».proof.Proof.IdealRun
import Idealize.ShloMosaic.Lib.Pipeline.Frame
import Idealize.ShloMosaic.Lib.StableHlo.Run
import Idealize.ShloMosaic.Lib.Decide
import Idealize.ShloMosaic.Lib.Pipeline.Regions

set_option maxRecDepth 16384

noncomputable section

/-! # The program as four segments, and its run

Two stretches of host operations, the kernel region, and the three operations after it. The region is entered
from all the core's unscoped buffers held whole: the one array both input windows read is dealt to them at half
shares, the output's array goes in whole, everything else bypasses the region. It is left with the output's array at
the last point's total; that buffer and the three the tail writes are then held at a valuation the tail's operations
run from, while the two argument buffers ride along untouched to the end, where they and the result are read. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the tail runs on -/

/-- The output's array when the region ends: what the write-backs left. -/
def X9 (c : Dev nD) : (⟨S1x1, .f32⟩ : BufTy).Contents (Elt F) := (dats m 0 c).arrAt 2 cfg0.N

/-- The core's buffers when the region ends: as at its entry, the output's array at what the region left. -/
def W (c : Dev nD) : Valuation τ sig (Elt F) := (StableHlo.nullary (τ := τ) main_v9 (X9 m c)).result (V₂ m c)

theorem W_v9 (c : Dev nD) : W m c (Proc.devRef .tc main_v9) = X9 m c := StableHlo.nullary_result _ _ _ _
theorem W_ne (c : Dev nD) {r : Ref sig .tc} (h : r ≠ main_v9) : W m c (Proc.devRef .tc r) = V m c r :=
  StableHlo.nullary_result_ne _ _ _ _ h

/-- A list of the core's references as a set of device buffers. -/
def refsOf (l : List (Ref sig .tc)) : Finset (DevRef τ sig) :=
  l.toFinset.map ⟨Proc.devRef (sig := sig) (.tc : Proc τ), Proc.devRef_injective _⟩

/-- Holding such a set is holding its buffers one by one. -/
theorem held_refsOf (c : Dev nD) (l : List (Ref sig .tc)) (hl : l.Nodup) (Wv : Valuation τ sig (Elt F)) :
    (StableHlo.held (c : Thread nD τ) (refsOf l) Wv : sProp 𝕄)
      = bigSepL l fun r => (((c : Thread nD τ).loc r) ↦{fullShare} Wv (Proc.devRef .tc r) : sProp 𝕄) := by
  unfold StableHlo.held refsOf
  rw [bigSep_map, bigSep_eq_bigSepL l hl]
  rfl

/-- The four buffers the operations after the region touch. -/
abbrev tailRefs : List (Ref sig .tc) := [main_v9, main_v10, main_cst, main_v11]
abbrev S4 : Finset (DevRef τ sig) := refsOf tailRefs

/-- Holding the four is holding each. -/
theorem held_S4 (c : Dev nD) (Wv : Valuation τ sig (Elt F)) :
    (StableHlo.held (c : Thread nD τ) S4 Wv : sProp 𝕄)
      = iprop((((c : Thread nD τ).loc main_v9) ↦{fullShare} Wv (Proc.devRef .tc main_v9))
          ∗ (((c : Thread nD τ).loc main_v10) ↦{fullShare} Wv (Proc.devRef .tc main_v10))
          ∗ (((c : Thread nD τ).loc main_cst) ↦{fullShare} Wv (Proc.devRef .tc main_cst))
          ∗ (((c : Thread nD τ).loc main_v11) ↦{fullShare} Wv (Proc.devRef .tc main_v11))) :=
  (held_refsOf c tailRefs (by decide) Wv).trans rfl

/-! ## The windows' arrays -/

/-- The distinct buffers behind the windows' arrays are two. -/
theorem arrBufs_eq (c : Dev nD) (V' : (b : Ref sig .tc) → Buf (Elt F) ((c : Thread nD τ).loc b)) :
    (Pipeline.arrBufs spec0 c V' : sProp 𝕄)
      = iprop((((c : Thread nD τ).loc main_v8) ↦{fullShare} V' main_v8) ∗ (((c : Thread nD τ).loc main_v9) ↦{fullShare} V' main_v9)) := by
  unfold Pipeline.arrBufs
  exact bigSep_eq_bigSepL_of_eq [main_v8, main_v9] (by decide) (by decide) _

/-- The proof data's arrays: the shared array at each input window's half, the output's whole. -/
theorem arrays_eq3 (c : Dev nD) (Fw : (w : Fin cfg0.W) → Buf (Elt F) ((cfg0.win w).arr.view.loc (c : Thread nD τ))) :
    ((dats m 0 c).arrays Fw : sProp 𝕄)
      = iprop((((c : Thread nD τ).loc main_v8) ↦{fullShare.left} Fw 0) ∗ (((c : Thread nD τ).loc main_v8) ↦{fullShare.right} Fw 1)
          ∗ (((c : Thread nD τ).loc main_v9) ↦{fullShare} Fw 2)) := by
  unfold Dat.arrays; rw [bigSep_W0]
  rw [(arr_whole0 0).set_eq_univ, (arr_whole0 2).set_eq_univ]
  rfl

/-- ENTRY: all the unscoped buffers at the entry contents are the arrays at the proof data's shares and the rest. -/
theorem entry_arrays (c : Dev nD) :
    (StableHlo.held (c : Thread nD τ) (Pipeline.ucRefs τ sig) (V₂ m c) : sProp 𝕄)
      ⊢ iprop((dats m 0 c).arrays ((dats m 0 c).arrAt · 0) ∗ Pipeline.unscopedRest spec0 c (V m c)) := by
  rw [show (StableHlo.held (c : Thread nD τ) (Pipeline.ucRefs τ sig) (V₂ m c) : sProp 𝕄) = unscopedBufs c (V m c) from
    (Pipeline.unscopedBufs_held c _).symm]
  rw [Pipeline.unscopedBufs_split₀ cfgs 0 winFacts₀0.arr_unscoped c (V m c)]
  refine sep_mono ?_ .rfl
  rw [arrBufs_eq, arrays_eq3]
  iintro ⟨H8, H9⟩
  ihave H8' := (pointsTo_share (PosShare.mem_left_op_right fullShare)).1 $$ H8
  icases H8' with ⟨H8l, H8r⟩
  isplitl [H8l]; · iexact H8l
  isplitl [H8r]; · iexact H8r
  iexact H9

/-- What rides past the tail to the end: the two argument buffers, as the region found them. -/
abbrev Keep (c : Dev nD) : sProp 𝕄 :=
  iprop((((c : Thread nD τ).loc main_arg0) ↦{fullShare} V m c main_arg0) ∗ (((c : Thread nD τ).loc main_arg1) ↦{fullShare} V m c main_arg1))

/-- EXIT: the arrays at their final contents and the bypassing buffers give the tail its four buffers at the exit
    valuation, and the arguments. -/
theorem exit_state (c : Dev nD) :
    iprop((dats m 0 c).arrays ((dats m 0 c).arrAt · cfg0.N) ∗ Pipeline.unscopedRest spec0 c (V m c))
      ⊢ (iprop(StableHlo.held (c : Thread nD τ) S4 (W m c) ∗ Keep m c) : sProp 𝕄) := by
  rw [arrays_eq3, unscopedRest0_eq, held_S4]
  rw [W_v9, W_ne m c (show main_v10 ≠ main_v9 by decide), W_ne m c (show main_cst ≠ main_v9 by decide), W_ne m c (show main_v11 ≠ main_v9 by decide)]
  iintro ⟨⟨-, -, H9⟩, Ha0, Ha1, -, -, -, -, -, -, -, -, -, -, -, -, H10, Hcst, H11⟩
  isplitr [Ha0 Ha1]
  · isplitl [H9]; · iexact H9
    isplitl [H10]; · iexact H10
    isplitl [Hcst]; · iexact Hcst
    iexact H11
  isplitl [Ha0]; · iexact Ha0
  iexact Ha1

/-! ## No host operation before the region writes an argument -/

theorem not_mem_single (b y : Ref sig .tc) (h : b ≠ y) (S : Finset (DevRef τ sig)) (hS : S = {Proc.devRef .tc y}) :
    Proc.devRef .tc b ∉ S := by
  subst hS; rw [Finset.mem_singleton]; exact StableHlo.devRef_ne_of_ne h

theorem nw0 (b : Ref sig .tc) (hb : b ∉ [main_call0_v0, main_call0_v1_0, main_v0]) :
    ∀ op ∈ (hostOps0 : List (HloOp τ sig (Elt F))), Proc.devRef .tc b ∉ op.writes := by
  intro op hop
  simp only [hostOps0, List.mem_cons, List.mem_nil_iff, or_false] at hop
  rcases hop with rfl | rfl | rfl
  · exact not_mem_single b main_call0_v0 (fun e => hb (by subst e; decide)) _ rfl
  · exact not_mem_single b main_call0_v1_0 (fun e => hb (by subst e; decide)) _ rfl
  · exact not_mem_single b main_v0 (fun e => hb (by subst e; decide)) _ rfl

theorem nw1 (b : Ref sig .tc) (hb : b ∉ [main_c, main_v1, main_v2, main_c_0, main_v3, main_v4, main_v5, main_v6, main_v7, main_v8]) :
    ∀ op ∈ (hostOps0_1 : List (HloOp τ sig (Elt F))), Proc.devRef .tc b ∉ op.writes := by
  intro op hop
  simp only [hostOps0_1, List.mem_cons, List.mem_nil_iff, or_false] at hop
  rcases hop with rfl | rfl | rfl | rfl | rfl | rfl | rfl | rfl | rfl | rfl
  · exact not_mem_single b main_c (fun e => hb (by subst e; decide)) _ rfl
  · exact not_mem_single b main_v1 (fun e => hb (by subst e; decide)) _ rfl
  · exact not_mem_single b main_v2 (fun e => hb (by subst e; decide)) _ rfl
  · exact not_mem_single b main_c_0 (fun e => hb (by subst e; decide)) _ rfl
  · exact not_mem_single b main_v3 (fun e => hb (by subst e; decide)) _ rfl
  · exact not_mem_single b main_v4 (fun e => hb (by subst e; decide)) _ rfl
  · exact not_mem_single b main_v5 (fun e => hb (by subst e; decide)) _ rfl
  · exact not_mem_single b main_v6 (fun e => hb (by subst e; decide)) _ rfl
  · exact not_mem_single b main_v7 (fun e => hb (by subst e; decide)) _ rfl
  · exact not_mem_single b main_v8 (fun e => hb (by subst e; decide)) _ rfl

/-- Each argument reaches the region, and the end, as launched. -/
theorem V_arg0 (c : Dev nD) : V m c main_arg0 = m ((c : Thread nD τ).loc main_arg0) :=
  (StableHlo.after_of_forall_not_mem (b := Proc.devRef .tc main_arg0) hostOps0_1 (V₁ m c) (nw1 main_arg0 (by decide))).trans
    (StableHlo.after_of_forall_not_mem (b := Proc.devRef .tc main_arg0) hostOps0 (V₀ m c) (nw0 main_arg0 (by decide)))
theorem V_arg1 (c : Dev nD) : V m c main_arg1 = m ((c : Thread nD τ).loc main_arg1) :=
  (StableHlo.after_of_forall_not_mem (b := Proc.devRef .tc main_arg1) hostOps0_1 (V₁ m c) (nw1 main_arg1 (by decide))).trans
    (StableHlo.after_of_forall_not_mem (b := Proc.devRef .tc main_arg1) hostOps0 (V₀ m c) (nw0 main_arg1 (by decide)))

/-! ## The segments -/

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is all of the certificate's. -/
abbrev EP : Emb (UR sig nD τ) (MT nD τ sig Unit (Elt F) ℕ (UR sig nD τ) ℕ) := emb₁
abbrev 𝒱₀ : Variants := Variants.none
/-- What rides beside the buffers: the core owing nothing. -/
abbrev R (c : Dev nD) : sProp 𝕄 := iprop(∃ Wt, owes (c : Thread nD τ) (0 : CellTallies nD τ sig Unit) Wt)

/-- The argsort's three operations, over all the unscoped buffers. -/
def segA : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The ten operations up to the reshape, over the same. -/
def segB : Pipeline.HostSeg (Name := ℕ) (U := UR sig nD τ) (pcfgs (F := F)) defs₀ 𝒱₀ L lv :=
  Pipeline.HostSeg.ofOps _ _ _ _ _ (Pipeline.ucRefs τ sig) hostOps0_1 (fun op h => Pipeline.sub_ucRefs op ((List.forall_iff_forall_mem.mp hostOps0_1_sub) op h))
    (by intro _ h; (repeat (cases h with | head => rfl | tail _ h => ?_)); exact nomatch h) (V₁ m) R

theorem mem_S4 {r : Ref sig .tc} (h : r ∈ tailRefs) : (Proc.devRef .tc r : DevRef τ sig) ∈ (S4 : Finset (DevRef τ sig)) :=
  Finset.mem_map_of_mem _ (List.mem_toFinset.mpr h)

theorem tail_sub : ∀ op ∈ (hostOps1 : List (HloOp τ sig (Elt F))), op.bufs ⊆ S4 := by
  intro op hop
  simp only [hostOps1, List.mem_cons, List.mem_nil_iff, or_false] at hop
  rcases hop with rfl | rfl | rfl
  · rw [StableHlo.reshape_bufs]; intro b hb; simp only [Finset.mem_insert, Finset.mem_singleton] at hb
    rcases hb with rfl | rfl <;> exact mem_S4 (by decide)
  · rw [StableHlo.nullary_bufs]; intro b hb; rw [Finset.mem_singleton] at hb; subst hb; exact mem_S4 (by decide)
  · rw [StableHlo.binary_bufs]; intro b hb; simp only [Finset.mem_insert, Finset.mem_singleton] at hb
    rcases hb with rfl | rfl | rfl <;> exact mem_S4 (by decide)

/-- The three operations after the region, over the four buffers they touch; the arguments ride along. -/
def segT : Pipeline.HostSeg (Name := ℕ) (U := UR sig nD τ) (pcfgs (F := F)) defs₀ 𝒱₀ L lv :=
  Pipeline.HostSeg.ofOps _ _ _ _ _ S4 hostOps1 tail_sub
    (by intro _ h; (repeat (cases h with | head => rfl | tail _ h => ?_)); exact nomatch h) (W m) (fun c => iprop(Keep m c ∗ R c))

set_option backward.isDefEq.respectTransparency.types false in
/-- THE REGION: entered from all the unscoped buffers at the entry contents, left with the tail's four buffers at the
    exit valuation and the arguments; nothing but the scratch cell enters the invariant. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₂ m c) ∗ R c)
  post c := iprop(StableHlo.held (c : Thread nD τ) S4 (W m c) ∗ (Keep m c ∗ R c))
  X c := iprop(emp)
  Y c := iprop(emp)
  Z c := Pipeline.unscopedRest spec0 c (V m c)
  hentry c := by
    iintro ⟨⟨Hub, HO⟩, -, -⟩
    ihave H := (entry_arrays m c) $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitr; · iempintro
    iexact Hz
  hin c := by
    rw [show (dats m 0 c).Φ 0 = PhiS m c 0 (Nat.zero_le _) from rfl, PhiS_zero m c 0 _ rfl]
    show iprop(_ ∗ _ ∗ Pipeline.scopedRest spec0 c) ⊢ _
    rw [scopedRest0_eq]; simp only [owns_whole]
    iintro ⟨-, -, Hr⟩
    iexact Hr
  hout c := by
    rw [show (dats m 0 c).Φ (Fin.last cfg0.N) = PhiS m c cfg0.N (le_refl _) from rfl,
      PhiS_pos m c _ _ (by have : cfg0.N = 62 := N_0; omega)]
    show _ ⊢ iprop(emp ∗ Pipeline.ownSems0 (fun k : PEmpty => k.elim) c ∗ Pipeline.scopedRest spec0 c)
    rw [Pipeline.ownSems0_none, scopedRest0_eq]; simp only [owns_whole]
    iintro H
    isplitr; · iempintro
    isplitr; · iempintro
    iexists _; iexact H
  hexit c := by
    iintro ⟨Ha, HO, -, Hz⟩
    ihave H := (exit_state m c) $$ [Ha Hz]
    · isplitl [Ha] <;> iassumption
    icases H with ⟨Hh, Hk⟩
    imodintro
    isplitl [Hh]; · iexact Hh
    isplitl [Hk]; · iexact Hk
    unfold Pipeline.Dat.owesAt Pipeline.owesWithin
    icases HO with ⟨%Wt, -, HO⟩; iexists Wt; iexact HO

/-- @main as the list of the four. -/
abbrev segs : List (Pipeline.Seg (pcfgs (F := F)) adm (dats m) () defs₀ 𝒱₀ L lv) :=
  [.host (segA m), .host (segB m), .region (reg0 m), .host (segT m)]

/-! ## The run -/

/-- The launch element: the pipeline library's at the staging cells and the pipeline's transfers. -/
def u₀ : UR sig nD τ := initOf (Pipeline.cells cfgs cellOf_inj) (Pipeline.launchToks cfgs cellOf_inj)

/-- The result buffer at the end: the three operations after the region, from the exit valuation. -/
def resOf (c : Dev nD) : (⟨S_, .f32⟩ : BufTy).Contents (Elt F) := StableHlo.after hostOps1 (W m c) (Proc.devRef .tc main_v11)

/-- The last thread state: the tail's four buffers after its operations, and the arguments. -/
abbrev Tₙ (c : Dev nD) : sProp 𝕄 :=
  iprop(StableHlo.held (c : Thread nD τ) S4 (StableHlo.after hostOps1 (W m c)) ∗ Keep m c)

/-- The post: the result buffer at `resOf`, both arguments as launched. -/
def QC : PUnit × MemSt nD τ sig (Elt F) → Prop := fun r => ∀ c : Dev nD,
  r.2.mem ((c.tc : Thread nD τ).loc main_v11) = resOf m c
    ∧ r.2.mem ((c.tc : Thread nD τ).loc main_arg0) = m ((c.tc : Thread nD τ).loc main_arg0)
    ∧ r.2.mem ((c.tc : Thread nD τ).loc main_arg1) = m ((c.tc : Thread nD τ).loc main_arg1)

set_option backward.isDefEq.respectTransparency.types false in
/-- At the compiled mesh, for any float values, from any memory with zero counters: every weakly fair execution of
    @main on the TensorCores terminates, nothing faulting, with the result buffer at `resOf` and the arguments unchanged. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by
      have e : main (F := F) c = Pipeline.Seg.run (segs m) :=
        (main_chain c).trans ((Pipeline.Seg.run_eq_chain (segs m)).trans rfl).symm
      rw [e])
    (by simp only [Pipeline.Seg.pipes_host, Pipeline.Seg.pipes_region, Pipeline.Seg.pipes_nil]; decide) (O₀ := 0) (hL := fun _ _ => rfl) (G := fun _ => iprop(emp)) (u₀ := u₀)
    (hu₀ := by
      show (ownU (initOf (Pipeline.cells (Pipeline.pin (pcfgs (F := F)) adm) cellOf_inj) (Pipeline.launchToks (Pipeline.pin (pcfgs (F := F)) adm) cellOf_inj)) : sProp 𝕄) ⊢ _
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun _ => .rfl, fun c => by
      show iprop(StableHlo.held (c : Thread nD τ) S4 (StableHlo.after hostOps1 (W m c)) ∗ (Keep m c ∗ R c)) ⊢ iprop(Tₙ m c ∗ R c)
      iintro ⟨Hh, Hk, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v11) = resOf m c
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      dsimp only [Tₙ, Keep]; rw [held_S4, V_arg0, V_arg1]
      iintro ⟨⟨⟨-, -, -, H11⟩, H0, H1⟩, HSI⟩
      icombine HSI H11 gives %h11
      icombine HSI H0 gives %h0
      icombine HSI H1 gives %h1
      imodintro
      isplitr
      · ipureintro
        exact ⟨Buf.eq_of_forall_mem_univ h11, Buf.eq_of_forall_mem_univ h0, Buf.eq_of_forall_mem_univ h1⟩
      iexact HSI)
    (hQ := fun _ h => h)

end Cert.KernelIdeal.Hand
end
-- ==== Proof.Spec.lean ====
import Idealize.ShloMosaic.Lib.ValueIdx
import Idealize.ShloMosaic.PureOps.Ideal.Laws

noncomputable section

open scoped BigOperators

/-! # The margin loss over adjacent class blocks, on the extended reals

For an array X of 32 classes of 1024 rows of 128 features, the loss pairs row i of class c with row j of class c + 1,
takes the clamped distance sqrt(max(|a|^2 + |b|^2 - 2 a.b, 0)) of the two rows, and sums max(1 - distance, 0) over all
31 * 1024 * 1024 pairs. A program that walks the pairs tile by tile — 62 tiles, tile t holding rows 512 (t / 31) ..
512 (t / 31) + 511 of class t % 31 against all rows of class t % 31 + 1 — adds up the same terms: sums on the extended
reals commute and associate with no side condition, so the two totals agree whatever the entries are. -/

namespace Cert.Spec

open Idealize.ShloMosaic

/-- One pair's term: max(1 - sqrt(max(|a|^2 + |b|^2 - 2 a.b, 0)), 0), the literals as the words the programs carry. -/
def pairTerm (a b : Fin 128 → EReal) : EReal :=
  max (Ideal.ofBits .f32 0x3F800000#32
      - Ideal.sqrt (max (((∑ d, a d * a d) + (∑ d, b d * b d)) - Ideal.ofBits .f32 0x40000000#32 * (∑ d, a d * b d))
          (Ideal.ofBits .f32 0x00000000#32)))
    (Ideal.ofBits .f32 0x00000000#32)

/-- The class of tile t and the first of its 512 rows. -/
def tileClass (t : Fin 62) : Fin 31 := ⟨t.val % 31, Nat.mod_lt _ (by decide)⟩
def tileRow (t : Fin 62) (i : Fin 512) : Fin 1024 := ⟨512 * (t.val / 31) + i.val, by have := t.isLt; have := i.isLt; omega⟩

/-- The sum over the 62 tiles of 512 rows is the sum over the 31 classes of 1024 rows. -/
theorem sum_tiles {M : Type*} [AddCommMonoid M] (f : Fin 31 → Fin 1024 → M) :
    ∑ t : Fin 62, ∑ i : Fin 512, f (tileClass t) (tileRow t i) = ∑ c : Fin 31, ∑ r : Fin 1024, f c r := by
  rw [← Finset.sum_product', ← Finset.sum_product']
  refine Finset.sum_bij' (fun p _ => (tileClass p.1, tileRow p.1 p.2))
    (fun q _ => ((⟨31 * (q.2.val / 512) + q.1.val, by have := q.1.isLt; have := q.2.isLt; omega⟩ : Fin 62),
      (⟨q.2.val % 512, Nat.mod_lt _ (by decide)⟩ : Fin 512)))
    (fun _ _ => Finset.mem_univ _) (fun _ _ => Finset.mem_univ _) ?_ ?_ (fun _ _ => rfl)
  · rintro ⟨t, i⟩ -
    refine Prod.ext (Fin.ext ?_) (Fin.ext ?_)
    · show 31 * ((512 * (t.val / 31) + i.val) / 512) + t.val % 31 = t.val
      have := t.isLt; have := i.isLt; omega
    · show (512 * (t.val / 31) + i.val) % 512 = i.val
      have := t.isLt; have := i.isLt; omega
  · rintro ⟨c, r⟩ -
    refine Prod.ext (Fin.ext ?_) (Fin.ext ?_)
    · show (31 * (r.val / 512) + c.val) % 31 = c.val
      have := c.isLt; have := r.isLt; omega
    · show 512 * ((31 * (r.val / 512) + c.val) / 31) + r.val % 512 = r.val
      have := c.isLt; have := r.isLt; omega

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Class c among the 32, and the class after it. -/
def classLo (c : Fin 31) : Fin 32 := ⟨c.val, by have := c.isLt; omega⟩
def classHi (c : Fin 31) : Fin 32 := ⟨c.val + 1, by have := c.isLt; omega⟩

/-- The array of 32 classes of 1024 rows of 128 features. -/
abbrev Blocks : Type := (⟨3, ![32, 1024, 128]⟩ : Shape).Idx → EReal

/-- Row r of class c against row j of class c + 1. -/
def rowPair (X : Blocks) (c : Fin 31) (r j : Fin 1024) : EReal :=
  pairTerm (fun d => X (ValueIdx.ix3 (classLo c) r d)) (fun d => X (ValueIdx.ix3 (classHi c) j d))

/-- The sum of the pair terms over all adjacent-class row pairs, -/
def lossSum (X : Blocks) : EReal := ∑ c : Fin 31, ∑ r : Fin 1024, ∑ j : Fin 1024, rowPair X c r j
/-- over one tile, -/
def tileSum (X : Blocks) (t : Fin 62) : EReal := ∑ i : Fin 512, ∑ j : Fin 1024, rowPair X (tileClass t) (tileRow t i) j
/-- and the tiles together are all pairs. -/
theorem sum_tileSum (X : Blocks) : ∑ t : Fin 62, tileSum X t = lossSum X :=
  sum_tiles fun c r => ∑ j : Fin 1024, rowPair X c r j

/-- The loss: the sum over all pairs divided by the count 31 * 1024 * 1024, as the word the programs carry. -/
def loss (X : Blocks) : EReal := Ideal.div (lossSum X) (Ideal.ofBits .f32 0x4BF80000#32)

/-- A running total that starts from z and adds g t at step t is z plus the sum of the g t. -/
theorem fold_eq_sum {M : Type*} [AddCommMonoid M] (z : M) (g : ℕ → M) (acc : ℕ → M)
    (h0 : acc 0 = z + g 0) (hs : ∀ n, acc (n + 1) = acc n + g (n + 1)) (n : ℕ) :
    acc n = z + ∑ k ∈ Finset.range (n + 1), g k := by
  induction n with
  | zero => rw [h0, Finset.sum_range_one]
  | succ n ih => rw [hs, ih, Finset.sum_range_succ _ (n + 1), add_assoc]

/-- A sum over the first 62 naturals of a function given on Fin 62 (zero elsewhere) is the sum over Fin 62. -/
theorem sum_range_62 {M : Type*} [AddCommMonoid M] (g : Fin 62 → M) :
    ∑ k ∈ Finset.range 62, (if h : k < 62 then g ⟨k, h⟩ else 0) = ∑ t : Fin 62, g t := by
  rw [Finset.sum_range]
  exact Finset.sum_congr rfl fun t _ => dif_pos t.isLt

end Cert.Spec

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«177037_j60825326846106_1_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.IdealValue.lean ====
import proofs.«177037_j60825326846106_1_alg».proof.Proof.IdealSegs
import proofs.«177037_j60825326846106_1_alg».proof.Proof.Spec
import proofs.«177037_j60825326846106_1_alg».proof.Proof.LibBlockOps
import proofs.«177037_j60825326846106_1_alg».proof.Proof.LibColumn
import proofs.«177037_j60825326846106_1_alg».proof.Proof.LibRowForms
import Idealize.ShloMosaic.Lib.ValueIdx
import Idealize.ShloMosaic.Lib.Pipeline.Value
import Idealize.ShloMosaic.PureOps.Ideal.Laws

set_option maxRecDepth 16384

noncomputable section

open scoped BigOperators

/-! # What the kernel program computes, on the extended reals

One point's step adds to the running total the tile's sum of pair terms, the rows read off the two staged blocks; the
blocks are rows of the sorted, gathered, reshaped array at the tile's class and offset; so the total after the last
point is the sum of the pair terms over all 62 tiles, which is the sum over all adjacent-class row pairs, and the
result buffer holds that total divided by the word the program carries. -/

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

variable (m : (ℓ : Loc nD τ sig) → Buf (Elt Ideal) ℓ)

/-- The one index of a 1 x 1 array. -/
abbrev u11 : S1x1.Idx := ix2 (0 : Fin 1) (0 : Fin 1)
theorem eq_u11 (j : S1x1.Idx) : j = u11 := by
  funext a; apply Fin.ext
  match a with
  | ⟨0, _⟩ => have h : (j 0).val < 1 := (j 0).isLt; show (j 0).val = 0; omega
  | ⟨1, _⟩ => have h : (j 1).val < 1 := (j 1).isLt; show (j 1).val = 0; omega

theorem sqrt_apply {s : Shape} {φ : FTy} (a : FVec Ideal s φ) (i : s.Idx) : sqrt a i = Ideal.sqrt (a i) := rfl

/-- A row's sum and a column's sum of an f32 array, the accumulator's seed the zero word as the body carries it. -/
theorem rowSum32 {M N : ℕ} (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) :=
  Cert.Lib.BlockOps.rowSum_apply src 0x00000000#32 h hφ hacc p
theorem colSum32 {M : ℕ} (src : FVec Ideal ⟨2, ![M, 1]⟩ .f32) (h : (⟨2, ![M, 1]⟩ : Shape).Reduces [0] ⟨1, ![1]⟩)
    (hφ : FKind.Formats .f32) (hacc : (0x00000000#32 : BitVec 32) = 0x00000000#32) :
    multiReduction .add [0] ⟨1, ![1]⟩ src 0x00000000#32 h hφ hacc (ix1 (0 : Fin 1)) = ∑ k : Fin M, src (ix2 k (0 : Fin 1)) :=
  Cert.Lib.Column.colSum_apply src 0x00000000#32 h hφ hacc

/-- One step at the cell's entry: the total so far plus the tile's sum of pair terms over its 512 x 1024 row pairs. -/
theorem step_apply (x0 : Vec Ideal S1x512x128 .f32) (x1 : Vec Ideal S1x1024x128 .f32) (xs : Vec Ideal S1x1 .f32) :
    step (F := Ideal) x0 x1 xs u11
      = xs u11 + ∑ i : Fin 512, ∑ j : Fin 1024,
          pairTerm (fun d => x0 (ix3 (0 : Fin 1) i d)) (fun d => x1 (ix3 (0 : Fin 1) j d)) := by
  unfold step k0_pay1 k0_pay3
  simp only [shapeCast_self, addf_apply, Cert.Lib.Column.col_apply]
  refine congrArg (xs u11 + ·) ?_
  rw [colSum32]
  refine Finset.sum_congr rfl fun i _ => ?_
  rw [Cert.Lib.Column.col_apply, rowSum32]
  refine Finset.sum_congr rfl fun j _ => ?_
  simp only [maximumf_apply, subf_apply, sqrt_apply, addf_apply, mulf_apply, broadcast_apply, matmul,
    dot_S512x128_S1024x128_S512x1024_1_1_0_0_n_n]
  rw [Cert.Lib.Column.colBroadcast_apply, Cert.Lib.Column.col_apply, rowSum32,
    Cert.Lib.RowForms.rowBroadcast_apply, Cert.Lib.RowForms.vecRow_apply, rowSum32,
    Cert.Lib.BlockOps.matmul_rows_apply]
  simp only [mulf_apply, truncf_apply, Cert.Lib.RowForms.unslab_apply]
  rfl

/-! ## The staged blocks are rows of the array -/

/-- The array of 32 classes as the region finds it. -/
abbrev Xk (cd : Dev nD) : Blocks := V m cd main_v8

/-- Point t as a tile number. -/
abbrev tOf (t : Fin cfg0.N) : Fin 62 := ⟨t.val, lt_of_lt_of_eq t.isLt N_0⟩

/-- The two input windows' block indices at every point: class t % 31 at half t / 31, and class t % 31 + 1 whole. -/
theorem idx0 : ∀ t : Fin cfg0.N, win0_0.index t (0 : Fin 3) = t.val % 31 ∧ win0_0.index t (1 : Fin 3) = t.val / 31 ∧ win0_0.index t (2 : Fin 3) = 0 :=
  (by decide +kernel : ∀ t : Fin grid0.N, win0_0.index t (0 : Fin 3) = t.val % 31 ∧ win0_0.index t (1 : Fin 3) = t.val / 31 ∧ win0_0.index t (2 : Fin 3) = 0)
theorem idx1 : ∀ t : Fin cfg0.N, win0_1.index t (0 : Fin 3) = t.val % 31 + 1 ∧ win0_1.index t (1 : Fin 3) = 0 ∧ win0_1.index t (2 : Fin 3) = 0 :=
  (by decide +kernel : ∀ t : Fin grid0.N, win0_1.index t (0 : Fin 3) = t.val % 31 + 1 ∧ win0_1.index t (1 : Fin 3) = 0 ∧ win0_1.index t (2 : Fin 3) = 0)

/-- Row i of the first staged block at point t is row 512 (t / 31) + i of class t % 31. -/
theorem iblk0_apply (cd : Dev nD) (t : Fin cfg0.N) (i : Fin 512) (d : Fin 128) :
    iblk m cd 0 t (ix3 (0 : Fin 1) i d) = Xk m cd (ix3 (classLo (tileClass (tOf t))) (tileRow (tOf t) i) d) := by
  unfold iblk
  rw [View.read_apply]
  show V m cd main_v8 (((cfg0.win 0).blk t).view.emb (ix3 (0 : Fin 1) i d)) = V m cd main_v8 _
  refine congrArg (V m cd main_v8) (funext fun a => Fin.ext ?_)
  match a with
  | ⟨0, _⟩ => show win0_0.index t (0 : Fin 3) * 1 + 1 * 0 = t.val % 31; rw [(idx0 t).1]; omega
  | ⟨1, _⟩ => show win0_0.index t (1 : Fin 3) * 512 + 1 * i.val = 512 * (t.val / 31) + i.val; rw [(idx0 t).2.1]; omega
  | ⟨2, _⟩ => show win0_0.index t (2 : Fin 3) * 128 + 1 * d.val = d.val; rw [(idx0 t).2.2]; omega

/-- Row j of the second staged block at point t is row j of class t % 31 + 1. -/
theorem iblk1_apply (cd : Dev nD) (t : Fin cfg0.N) (j : Fin 1024) (d : Fin 128) :
    iblk m cd 1 t (ix3 (0 : Fin 1) j d) = Xk m cd (ix3 (classHi (tileClass (tOf t))) j d) := by
  unfold iblk
  rw [View.read_apply]
  show V m cd main_v8 (((cfg0.win 1).blk t).view.emb (ix3 (0 : Fin 1) j d)) = V m cd main_v8 _
  refine congrArg (V m cd main_v8) (funext fun a => Fin.ext ?_)
  match a with
  | ⟨0, _⟩ => show win0_1.index t (0 : Fin 3) * 1 + 1 * 0 = t.val % 31 + 1; rw [(idx1 t).1]; omega
  | ⟨1, _⟩ => show win0_1.index t (1 : Fin 3) * 1024 + 1 * j.val = j.val; rw [(idx1 t).2.1]; omega
  | ⟨2, _⟩ => show win0_1.index t (2 : Fin 3) * 128 + 1 * d.val = d.val; rw [(idx1 t).2.2]; omega

/-- One point's step on the staged blocks adds that tile's sum. -/
theorem step_tile (cd : Dev nD) (t : Fin cfg0.N) (xs : Vec Ideal S1x1 .f32) :
    step (F := Ideal) (iblk m cd 0 t) (iblk m cd 1 t) xs u11 = xs u11 + tileSum (Xk m cd) (tOf t) := by
  rw [step_apply]
  refine congrArg (xs u11 + ·) ?_
  unfold tileSum rowPair
  simp only [iblk0_apply, iblk1_apply]

/-- The cell is zeroed at the first point. -/
theorem pay2_zero : (k0_pay2 (F := Ideal)) u11 = 0 := by
  unfold k0_pay2
  simp only [shapeCast_self, broadcast_apply]
  exact Ideal.ofBits_zero_f32

/-- The tile sums as a function of a natural number. -/
def tileN (cd : Dev nD) (k : ℕ) : EReal := if h : k < 62 then tileSum (Xk m cd) ⟨k, h⟩ else 0

theorem tileN_of_lt (cd : Dev nD) (t : Fin cfg0.N) : tileN m cd t.val = tileSum (Xk m cd) (tOf t) :=
  dif_pos (lt_of_lt_of_eq t.isLt N_0)

/-- The running total after point n is the sum of the tile sums up to n. -/
theorem acc_apply (cd : Dev nD) : ∀ (n : ℕ) (h : n < cfg0.N), acc m cd n h u11 = ∑ k ∈ Finset.range (n + 1), tileN m cd k
  | 0, h => by
    rw [acc, step_tile, pay2_zero, zero_add, Finset.sum_range_one]
    exact (tileN_of_lt m cd ⟨0, h⟩).symm
  | n + 1, h => by
    rw [acc, step_tile, acc_apply cd n (Nat.lt_of_succ_lt h), Finset.sum_range_succ _ (n + 1)]
    exact congrArg (_ + ·) (tileN_of_lt m cd ⟨n + 1, h⟩).symm

/-- After the last point the total is the sum over all adjacent-class row pairs. -/
theorem acc_last (cd : Dev nD) (h : 61 < cfg0.N) : acc m cd 61 h u11 = lossSum (Xk m cd) := by
  rw [acc_apply, ← sum_tileSum, ← sum_range_62]
  rfl

/-! ## The output's array after the region, and the result -/

/-- Only the last point writes the output back. -/
theorem flush_last (t : Fin cfg0.N) (hf : (cfg0.win 2).flush t = true) : t.val = 61 := by
  have h := (flush0_2 t).mp hf
  have hN : t.val < 62 := lt_of_lt_of_eq t.isLt N_0
  omega

/-- The output's array when the region ends holds, at its one entry, the total after the last point. -/
theorem X9_apply (cd : Dev nD) (j : S1x1.Idx) : X9 m cd j = lossSum (Xk m cd) := by
  have h61 : 61 < cfg0.N := by rw [show cfg0.N = 62 from N_0]; decide
  have hf : (cfg0.win 2).flush ⟨61, h61⟩ = true := (flush0_2 ⟨61, h61⟩).mpr (show 61 % 62 = 61 from rfl)
  have hr := Dat.read_blk_arrAt_eq_flushed (dat := dats m 0 cd) 2
    (fun t t' ht ht' hne => absurd (Fin.ext ((flush_last t ht).trans (flush_last t' ht').symm)) hne)
    cfg0.N ⟨61, h61⟩ h61 hf
  have hr' := congrFun hr u11
  rw [View.read_apply] at hr'
  have hj : j = ((cfg0.win 2).blk ⟨61, h61⟩).view.emb u11 := (eq_u11 j).trans (eq_u11 _).symm
  unfold X9
  rw [hj]
  refine hr'.trans ?_
  show (dats m 0 cd).after 2 ⟨61, h61⟩ u11 = _
  rw [after2]
  exact acc_last m cd h61

/-- The result buffer: the loss of the array the region found. -/
theorem resOf_eq (cd : Dev nD) (i : S_.Idx) : resOf m cd i = loss (Xk m cd) := by
  unfold resOf
  dsimp only [hostOps1]
  after_results
  rw [W_v9]
  show Ideal.div (shapeCast S_ (X9 m cd) shapeCasts_S1x1_S_ i) (Ideal.ofBits .f32 0x4BF80000#32) = _
  rw [shapeCast_apply (X9 m cd) shapeCasts_S1x1_S_ i u11 (by
    have h1 : (Shape.rowMajor S1x1 u11).val < 1 := (Shape.rowMajor S1x1 u11).isLt
    have h2 : (Shape.rowMajor S_ i).val < 1 := (Shape.rowMajor S_ i).isLt
    show (Shape.rowMajor S1x1 u11).val = (Shape.rowMajor S_ i).val
    omega), X9_apply]
  rfl

end Cert.KernelIdeal.Hand
end
-- ==== Proof.RefValue.lean ====
import proofs.«177037_j60825326846106_1_alg».proof.Proof.Gen.ReferenceIdeal.Read
import proofs.«177037_j60825326846106_1_alg».proof.Proof.Spec

set_option maxRecDepth 16384

noncomputable section

open scoped BigOperators

/-! # What the reference program computes, on the extended reals

The reference slices the sorted, gathered, reshaped array into classes 0..30 and classes 1..31, forms for every class c
and rows i, j the squared norms of row i of class c and row j of class c + 1 and their inner product, takes
max(1 - sqrt(max(sum, 0)), 0), sums over all (c, i, j) from zero and divides by the count: the loss of that array. -/

namespace Cert.ReferenceIdeal.RefValue

open Cert.ReferenceIdeal Cert.ReferenceIdeal.Gen Cert.ReferenceIdeal.Read
open Idealize.ShloMosaic Idealize.ShloMosaic.ValueIdx Cert.Spec

variable (x0 : (⟨S32768x128, .f32⟩ : BufTy).Contents (Elt Ideal)) (x1 : (⟨S32768, .i32⟩ : BufTy).Contents (Elt Ideal))

/-! The composed index functions of the read lemmas, at an index given by its coordinates. -/

theorem e17 (c : Fin 31) (i j : Fin 1024) : idx_main_v17 (ix3 c i j) = ix3 c i (0 : Fin 1) :=
  funext fun a => Fin.ext (by match a with | ⟨0, _⟩ => rfl | ⟨1, _⟩ => rfl | ⟨2, _⟩ => rfl)
theorem e13 (c : Fin 31) (i : Fin 1024) : idx_main_v13 (ix3 c i (0 : Fin 1)) = ix2 c i :=
  funext fun a => Fin.ext (by match a with | ⟨0, _⟩ => rfl | ⟨1, _⟩ => rfl)
theorem e12 (c : Fin 31) (i : Fin 1024) (k : Fin 128) : idx_main_v12 (ix2 c i) k = ix3 c i k :=
  funext fun a => Fin.ext (by match a with | ⟨0, _⟩ => rfl | ⟨1, _⟩ => rfl | ⟨2, _⟩ => rfl)
theorem e9 (c : Fin 31) (i : Fin 1024) (k : Fin 128) : idx_main_v9 (ix3 c i k) = ix3 (classLo c) i k :=
  funext fun a => Fin.ext (by match a with | ⟨0, _⟩ => rfl | ⟨1, _⟩ => rfl | ⟨2, _⟩ => rfl)
theorem e18 (c : Fin 31) (i j : Fin 1024) : idx_main_v18 (ix3 c i j) = ix3 c (0 : Fin 1) j :=
  funext fun a => Fin.ext (by match a with | ⟨0, _⟩ => rfl | ⟨1, _⟩ => rfl | ⟨2, _⟩ => rfl)
theorem e16 (c : Fin 31) (j : Fin 1024) : idx_main_v16 (ix3 c (0 : Fin 1) j) = ix2 c j :=
  funext fun a => Fin.ext (by match a with | ⟨0, _⟩ => rfl | ⟨1, _⟩ => rfl)
theorem e15 (c : Fin 31) (j : Fin 1024) (k : Fin 128) : idx_main_v15 (ix2 c j) k = ix3 c j k :=
  funext fun a => Fin.ext (by match a with | ⟨0, _⟩ => rfl | ⟨1, _⟩ => rfl | ⟨2, _⟩ => rfl)
theorem e10 (c : Fin 31) (j : Fin 1024) (k : Fin 128) : idx_main_v10 (ix3 c j k) = ix3 (classHi c) j k :=
  funext fun a => Fin.ext (by
    match a with
    | ⟨0, _⟩ => show 1 + c.val = c.val + 1; omega
    | ⟨1, _⟩ => rfl
    | ⟨2, _⟩ => rfl)
theorem el (c : Fin 31) (i j : Fin 1024) (k : Fin 128) : lidx_main_v20 (ix3 c i j) k = ix3 c i k :=
  funext fun a => Fin.ext (by match a with | ⟨0, _⟩ => rfl | ⟨1, _⟩ => rfl | ⟨2, _⟩ => rfl)
theorem er (c : Fin 31) (i j : Fin 1024) (k : Fin 128) : ridx_main_v20 (ix3 c i j) k = ix3 c j k :=
  funext fun a => Fin.ext (by match a with | ⟨0, _⟩ => rfl | ⟨1, _⟩ => rfl | ⟨2, _⟩ => rfl)

/-- The array of 32 classes the reference slices. -/
abbrev X8 : Blocks := val_main_v8 (F := Ideal) x0 x1

/-- The entry for class c and rows i, j, before the sum: that pair's term. -/
theorem term_apply (c : Fin 31) (i j : Fin 1024) :
    val_main_v29 (F := Ideal) x0 x1 (ix3 c i j) = rowPair (X8 x0 x1) c i j := by
  rw [val_main_v29_apply, val_main_v28_apply, val_main_v27_apply, val_main_cst_4_apply, val_main_v26_apply,
    val_main_v25_apply, val_main_v24_apply, val_main_cst_3_apply, val_main_v23_apply, val_main_v19_apply,
    val_main_v17_apply, val_main_v13_apply, val_main_v12_apply, val_main_v18_apply, val_main_v16_apply,
    val_main_v15_apply, val_main_v22_apply, val_main_v21_apply, val_main_cst_2_apply, val_main_v20_apply,
    val_main_call1_v0_apply, val_main_call1_cst_apply, val_main_cst_apply, val_main_cst_1_apply]
  simp only [e17, e13, e12, e18, e16, e15, el, er, val_main_v11_apply, val_main_v14_apply, val_main_v9_apply, val_main_v10_apply,
    e9, e10, Ideal.ofBits_def, Ideal.mulf_def, Ideal.subf_def, Ideal.addf_def, Ideal.maximumf_def, Ideal.hostUnary_sqrt_def,
    Ideal.ofBits_zero_f32, zero_add]
  unfold rowPair pairTerm
  simp only [Ideal.ofBits_zero_f32]

/-- The reference's result: the loss of the array. -/
theorem result_apply (i : S_.Idx) : val_main_v31 (F := Ideal) x0 x1 i = loss (X8 x0 x1) := by
  rw [val_main_v31_apply, val_main_v30_apply, val_main_cst_5_apply, val_main_cst_6_apply]
  simp only [Ideal.hostDivf_def, Ideal.ofBits_def, Ideal.ofBits_zero_f32, zero_add]
  unfold loss lossSum
  refine congrArg (fun s => Ideal.div s _) ?_
  rw [sum_idx3]
  exact Finset.sum_congr rfl fun c _ => Finset.sum_congr rfl fun r _ => Finset.sum_congr rfl fun j _ => term_apply x0 x1 c r j

end Cert.ReferenceIdeal.RefValue

end
-- ==== Proof.lean ====
/-
  The certificate: the tiled kernel and the reference compute the same margin loss over adjacent class blocks.

  Both programs sort the rows by label (a stable argsort), gather them, and view the result as 32 classes of 1024 rows of
  128 features. The reference forms, for every class c and rows i, j, the term max(1 - sqrt(max(|a|^2 + |b|^2 - 2 a.b, 0)), 0)
  of row i of class c against row j of class c + 1, sums all 31 * 1024 * 1024 terms and divides by that count. The kernel
  walks the same pairs in 62 tiles of 512 x 1024, adding each tile's sum into a running total it keeps in a scratch cell,
  and divides the final total by the same count. On the extended reals a finite sum may be regrouped and reordered with no
  side condition, so the two totals are equal for every input, finite or not: the precondition is never opened.

  The three frames: each kernel program's run (every weakly fair execution ends, nothing faults, the two arguments are
  as they were) is proved once for any float values and cited at the word-level values and at the extended reals; the
  reference's is its host operations' run. No rewrite was applied when the kernel was idealized, so that conjunct is empty.
-/
import proofs.«177037_j60825326846106_1_alg».proof.Defs
import proofs.«177037_j60825326846106_1_alg».proof.Proof.Gen.Kernel
import proofs.«177037_j60825326846106_1_alg».proof.Proof.Gen.KernelIdeal
import proofs.«177037_j60825326846106_1_alg».proof.Proof.Gen.ReferenceIdeal
import proofs.«177037_j60825326846106_1_alg».proof.Proof.Gen.ReferenceIdeal.Read
import proofs.«177037_j60825326846106_1_alg».proof.Proof.Gen.Pre_finite_inputs
import proofs.«177037_j60825326846106_1_alg».proof.Proof.BitsSegs
import proofs.«177037_j60825326846106_1_alg».proof.Proof.IdealSegs
import proofs.«177037_j60825326846106_1_alg».proof.Proof.IdealValue
import proofs.«177037_j60825326846106_1_alg».proof.Proof.RefValue

set_option maxRecDepth 16384

noncomputable section

namespace Cert.Proof

open Idealize.ShloMosaic Idealize.ShloMosaic.TcCoe Idealize.SL.Sem

/-- The array of 32 classes the kernel's region finds is the one the reference slices: the same thirteen host operations
    of the same two arguments. -/
theorem blocks_eq (m : (ℓ : Loc Cert.KernelIdeal.nD Cert.KernelIdeal.τ Cert.KernelIdeal.sig) → Buf (Elt Ideal) ℓ) (c : Dev Cert.KernelIdeal.nD) :
    Cert.KernelIdeal.Hand.Xk m c
      = Cert.ReferenceIdeal.RefValue.X8 (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  show StableHlo.after Cert.KernelIdeal.Gen.hostOps0_1 (StableHlo.after Cert.KernelIdeal.Gen.hostOps0 (fun b => m (c, b)))
    (Proc.devRef .tc Cert.KernelIdeal.main_v8) = _
  dsimp only [Cert.KernelIdeal.Gen.hostOps0_1, Cert.KernelIdeal.Gen.hostOps0]
  after_results_simp
  rfl

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the loss of the same array. -/
theorem algebraic : Cert.algebraic_KernelIdeal_ReferenceIdeal := by
  intro m ρ m' ρ' _ hagree
  refine ⟨fun c => Cert.KernelIdeal.Hand.resOf m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2]
  funext i
  rw [Cert.ReferenceIdeal.RefValue.result_apply]
  exact ((Cert.KernelIdeal.Hand.resOf_eq m c i).trans (congrArg Cert.Spec.loss (blocks_eq m c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
